-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S16x64 : Shape := ⟨2, ![16, 64]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S16x64 : S_.BroadcastsInDim S16x64 (![] : Fin 0 → Fin S16x64.rank)
  reducesTo_S16x64_S_d0_1 : S16x64.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg8 : FVec F S16x64 .f32) (main_arg9 : FVec F S16 .f32) (main_v33 : IVec S_ 1) : IVec S_ 1 :=
  let main_v34 : FVec F S16x64 .f32 := Host.absf main_arg8
  let main_cst_12 : FVec F S_ .f32 := constant S_ .f32 0x7F800000#32
  let main_v35 : FVec F S16x64 .f32 := broadcastInDim S16x64 ![] bcast_S_S16x64 main_cst_12
  let main_v36 : IVec S16x64 1 := cmpf .olt main_v34 main_v35
  let main_c_13 : IVec S_ 1 := constantI S_ 1 1#1
  let main_v37 : IVec S_ 1 := (fun x v => Host.reduce IntOp.andi x v reducesTo_S16x64_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg5 : FVec F S64x64 .f32) (main_arg6 : FVec F S64 .f32) (main_arg7 : FVec F S64x64 .f32) (main_arg8 : FVec F S16x64 .f32) (main_arg9 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S16x64 .f32) (main_arg9 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S16x64 : Shape := ⟨2, ![16, 64]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S10000x64 : Shape := ⟨2, ![10000, 64]⟩
abbrev S64x16 : Shape := ⟨2, ![64, 16]⟩
abbrev S1x16 : Shape := ⟨2, ![1, 16]⟩
abbrev S100000x16 : Shape := ⟨2, ![100000, 16]⟩
abbrev S10000x16 : Shape := ⟨2, ![10000, 16]⟩

abbrev nBuf : Space → Nat
  | .hbm => 69
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S16x64, .f32⟩
  | .hbm, ⟨9, _⟩ => ⟨S16, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x64, .f32⟩
  | .hbm, ⟨35, _⟩ => ⟨S_, .f32⟩
  | .hbm, ⟨36, _⟩ => ⟨S100000x64, .f32⟩
  | .hbm, ⟨37, _⟩ => ⟨S1600000x1, .i32⟩
  | .hbm, ⟨38, _⟩ => ⟨S100000x64, .f32⟩
  | .hbm, ⟨39, _⟩ => ⟨S100000x1, .f32⟩
  | .hbm, ⟨40, _⟩ => ⟨S100000x64, .f32⟩
  | .hbm, ⟨41, _⟩ => ⟨S100000x64, .f32⟩
  | .hbm, ⟨42, _⟩ => ⟨S64x64, .f32⟩
  | .hbm, ⟨43, _⟩ => ⟨S64x64, .f32⟩
  | .hbm, ⟨44, _⟩ => ⟨S1x64, .f32⟩
  | .hbm, ⟨45, _⟩ => ⟨S100000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S100000x1, .f32⟩
  | .hbm, ⟨60, _⟩ => ⟨S100000x64, .f32⟩
  | .hbm, ⟨61, _⟩ => ⟨S100000x64, .f32⟩
  | .hbm, ⟨62, _⟩ => ⟨S64x64, .f32⟩
  | .hbm, ⟨63, _⟩ => ⟨S64x64, .f32⟩
  | .hbm, ⟨64, _⟩ => ⟨S1x64, .f32⟩
  | .hbm, ⟨65, _⟩ => ⟨S100000x64, .f32⟩
  | .hbm, ⟨66, _⟩ => ⟨S64x16, .f32⟩
  | .hbm, ⟨67, _⟩ => ⟨S1x16, .f32⟩
  | .hbm, ⟨68, _⟩ => ⟨S100000x16, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S64x16, .f32⟩
  | .local _ .vmem, ⟨21, _⟩ => ⟨S1x16, .f32⟩
  | .local _ .vmem, ⟨22, _⟩ => ⟨S10000x16, .f32⟩
  | .local _ .vmem, ⟨23, _⟩ => ⟨S10000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  transposes_S16x64_S64x16_1_0 : S16x64.Transposes [1, 0] S64x16
  shapeCasts_S16_S1x16 : S16.ShapeCasts S1x16
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x64_S64x16_S10000x16_1_0_0_1_n_n_wf : DotDims.WF S10000x64 S64x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x16.size a ≤ S64x16.size a
  hwx2_1 : ∀ i : grid2.Coords, EltTy.bits .f32 = 32 ∨ (Rect.block (s := S64x16) S64x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x16.size a ≤ S100000x16.size a
  hwx2_3 : ∀ i : grid2.Coords, EltTy.bits .f32 = 32 ∨ (Rect.block (s := S100000x16) S10000x16.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf

abbrev win0_0 : Pipeline.Window sig grid0 :=
  Pipeline.Window.ofSpec (Memref.whole main_v24) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S64x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S10000x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S16x64 : Shape := ⟨2, ![16, 64]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S64x16 : Shape := ⟨2, ![64, 16]⟩
abbrev S100000x16 : Shape := ⟨2, ![100000, 16]⟩
abbrev S1x16 : Shape := ⟨2, ![1, 16]⟩

abbrev nBuf : Space → Nat
  | .hbm => 91
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S16x64, .f32⟩
  | .hbm, ⟨9, _⟩ => ⟨S16, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S_, .f32⟩
  | .hbm, ⟨24, _⟩ => ⟨S100000x64, .f32⟩
  | .hbm, ⟨25, _⟩ => ⟨S1600000x1, .i32⟩
  | .hbm, ⟨26, _⟩ => ⟨S100000x64, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x64, .f32⟩
  | .hbm, ⟨38, _⟩ => ⟨S100000x64, .f32⟩
  | .hbm, ⟨39, _⟩ => ⟨S64x64, .f32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S100000x64, .f32⟩
  | .hbm, ⟨44, _⟩ => ⟨S64x64, .f32⟩
  | .hbm, ⟨45, _⟩ => ⟨S100000x64, .f32⟩
  | .hbm, ⟨46, _⟩ => ⟨S100000x64, .f32⟩
  | .hbm, ⟨47, _⟩ => ⟨S_, .f32⟩
  | .hbm, ⟨48, _⟩ => ⟨S100000x64, .f32⟩
  | .hbm, ⟨49, _⟩ => ⟨S100000x64, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x64, .f32⟩
  | .hbm, ⟨59, _⟩ => ⟨S_, .f32⟩
  | .hbm, ⟨60, _⟩ => ⟨S100000x64, .f32⟩
  | .hbm, ⟨61, _⟩ => ⟨S1600000x1, .i32⟩
  | .hbm, ⟨62, _⟩ => ⟨S100000x64, .f32⟩
  | .hbm, ⟨63, _⟩ => ⟨S_, .f32⟩
  | .hbm, ⟨64, _⟩ => ⟨S1600000, .f32⟩
  | .hbm, ⟨65, _⟩ => ⟨S_, .f32⟩
  | .hbm, ⟨66, _⟩ => ⟨S100000, .f32⟩
  | .hbm, ⟨67, _⟩ => ⟨S1600000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x64, .f32⟩
  | .hbm, ⟨74, _⟩ => ⟨S100000x64, .f32⟩
  | .hbm, ⟨75, _⟩ => ⟨S64x64, .f32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S64x64, .f32⟩
  | .hbm, ⟨81, _⟩ => ⟨S100000x64, .f32⟩
  | .hbm, ⟨82, _⟩ => ⟨S100000x64, .f32⟩
  | .hbm, ⟨83, _⟩ => ⟨S_, .f32⟩
  | .hbm, ⟨84, _⟩ => ⟨S100000x64, .f32⟩
  | .hbm, ⟨85, _⟩ => ⟨S100000x64, .f32⟩
  | .hbm, ⟨86, _⟩ => ⟨S64x16, .f32⟩
  | .hbm, ⟨87, _⟩ => ⟨S100000x16, .f32⟩
  | .hbm, ⟨88, _⟩ => ⟨S1x16, .f32⟩
  | .hbm, ⟨89, _⟩ => ⟨S100000x16, .f32⟩
  | .hbm, ⟨90, _⟩ => ⟨S100000x16, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_c_4 : Ref sig .tc := ⟨.hbm, 50, rfl⟩
abbrev main_v32 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call1_cst : Ref sig .tc := ⟨.hbm, 83, rfl⟩
abbrev main_call1_v0 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S16x64_S64x16_1_0 : S16x64.Transposes [1, 0] S64x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  dot_S100000x64_S64x16_S100000x16_1_0_0_1_n_n_wf : DotDims.WF S100000x64 S64x16 S100000x16 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.KRun.lean ====
/-
  The whole program's run with its result named.

  The program is six segments: three stretches of host operations and three pipelined kernels. The buffer contents at each
  boundary are a fold from the launch memory (each host stretch applies its operations; each kernel leaves its arrays at what
  its write-backs fold to and every other buffer as entered). Every weakly fair execution terminates without a fault in a state
  whose unscoped buffers hold the last boundary's contents; read at the result buffer this names the program's result, and
  read at the ten arguments it gives back what was launched.
-/
import proofs.«127411_j25804163515003_1_alg».proof.Proof.Gen.KernelIdeal.Frame

set_option maxRecDepth 16384

noncomputable section

namespace Cert.Sage.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends with the result buffer at the last boundary's contents and the argument
    arrays as launched. -/
theorem run_named : θ_run defs (onTc (τ := τ) (main (F := F))) ⟨m, fun _ => 0, ρ⟩ (fun r => ∀ c : Dev nD,
      r.2.mem ((c.tc : Thread nD τ).loc main_v48) = W6 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v48 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.Sage.KRun

end
-- ==== Proof.Spec.lean ====
/-
  A two-layer GraphSAGE network with mean aggregation, index by index on the extended reals.

  A layer sends node features `X` and aggregated neighbour features `A` (both `[100000, 64]`) to
  `relu (A · Wlᵀ + X · Wrᵀ + b)`: at node `p` and channel `q`

      max (∑ k, A (p, k) · Wl (q, k) + ∑ k, X (p, k) · Wr (q, k) + b q) 0,

  the weights stored as (out, in). The read-out is `X · Wᵀ + b` into 16 channels. Two small laws on the extended reals are
  all the algebra the two programs differ by: a product with the reciprocal `1 / y` is the quotient by `y` whenever `y ≠ 0`
  (also at an infinite `y`, where both are the product with `0`), and a count clamped below by `1` is never `0`.
-/
import Idealize.ShloMosaic.PureOps.Ideal
import Idealize.ShloMosaic.Lib.ValueIdx

noncomputable section

namespace Cert.Sage

open Idealize.ShloMosaic Idealize.ShloMosaic.ValueIdx

/-- One layer at node `p`, channel `q`: `max (∑ k, A (p, k) · Wl (q, k) + ∑ k, X (p, k) · Wr (q, k) + b q) 0`. -/
def sageAt (A X : (⟨2, ![100000, 64]⟩ : Shape).Idx → EReal) (Wl Wr : (⟨2, ![64, 64]⟩ : Shape).Idx → EReal)
    (b : (⟨1, ![64]⟩ : Shape).Idx → EReal) (p : Fin 100000) (q : Fin 64) : EReal :=
  max ((∑ k : Fin 64, A (ix2 p k) * Wl (ix2 q k)) + (∑ k : Fin 64, X (ix2 p k) * Wr (ix2 q k)) + b (ix1 q)) 0

/-- The layer as an array. -/
def sageArr (A X : (⟨2, ![100000, 64]⟩ : Shape).Idx → EReal) (Wl Wr : (⟨2, ![64, 64]⟩ : Shape).Idx → EReal)
    (b : (⟨1, ![64]⟩ : Shape).Idx → EReal) : (⟨2, ![100000, 64]⟩ : Shape).Idx → EReal :=
  fun i => sageAt A X Wl Wr b (i 0) (i 1)

theorem sageArr_ix2 (A X : (⟨2, ![100000, 64]⟩ : Shape).Idx → EReal) (Wl Wr : (⟨2, ![64, 64]⟩ : Shape).Idx → EReal)
    (b : (⟨1, ![64]⟩ : Shape).Idx → EReal) (p : Fin 100000) (q : Fin 64) :
    sageArr A X Wl Wr b (ix2 p q) = sageAt A X Wl Wr b p q := rfl

/-- The read-out at node `p`, channel `q`: `∑ k, X (p, k) · W (q, k) + b q`. -/
def linAt (X : (⟨2, ![100000, 64]⟩ : Shape).Idx → EReal) (W : (⟨2, ![16, 64]⟩ : Shape).Idx → EReal)
    (b : (⟨1, ![16]⟩ : Shape).Idx → EReal) (p : Fin 100000) (q : Fin 16) : EReal :=
  (∑ k : Fin 64, X (ix2 p k) * W (ix2 q k)) + b (ix1 q)

/-- The read-out as an array. -/
def linArr (X : (⟨2, ![100000, 64]⟩ : Shape).Idx → EReal) (W : (⟨2, ![16, 64]⟩ : Shape).Idx → EReal)
    (b : (⟨1, ![16]⟩ : Shape).Idx → EReal) : (⟨2, ![100000, 16]⟩ : Shape).Idx → EReal :=
  fun i => linAt X W b (i 0) (i 1)

theorem linArr_ix2 (X : (⟨2, ![100000, 64]⟩ : Shape).Idx → EReal) (W : (⟨2, ![16, 64]⟩ : Shape).Idx → EReal)
    (b : (⟨1, ![16]⟩ : Shape).Idx → EReal) (p : Fin 100000) (q : Fin 16) :
    linArr X W b (ix2 p q) = linAt X W b p q := rfl

/-- Multiplying by the reciprocal of a nonzero extended real is dividing by it. -/
theorem mul_div_one (x y : EReal) (hy : y ≠ 0) : x * Ideal.div 1 y = Ideal.div x y := by
  unfold Ideal.div
  rw [if_neg hy, if_neg hy, one_mul]

/-- A number clamped below by one is not zero. -/
theorem max_one_ne_zero (c : EReal) : max c 1 ≠ 0 :=
  ne_of_gt (lt_of_lt_of_le zero_lt_one (le_max_right c 1))

end Cert.Sage

end
-- ==== Proof.SpecT.lean ====
/-
  The layer and the read-out as the kernels compute them: the weights already transposed to (in, out) and the bias laid out as
  a row `[1, n]`. At node `p` and channel `q` the layer is

      max (∑ k, A (p, k) · WlT (k, q) + ∑ k, X (p, k) · WrT (k, q) + b (0, q)) 0

  and the read-out `∑ k, X (p, k) · WT (k, q) + b (0, q)`.
-/
import proofs.«127411_j25804163515003_1_alg».proof.Proof.Spec

noncomputable section

namespace Cert.Sage

open Idealize.ShloMosaic Idealize.ShloMosaic.ValueIdx

/-- One layer over transposed weights and a row bias, at node `p`, channel `q`. -/
def sageTAt (A X : (⟨2, ![100000, 64]⟩ : Shape).Idx → EReal) (WlT WrT : (⟨2, ![64, 64]⟩ : Shape).Idx → EReal)
    (b : (⟨2, ![1, 64]⟩ : Shape).Idx → EReal) (p : Fin 100000) (q : Fin 64) : EReal :=
  max ((∑ k : Fin 64, A (ix2 p k) * WlT (ix2 k q)) + (∑ k : Fin 64, X (ix2 p k) * WrT (ix2 k q)) + b (ix2 (0 : Fin 1) q)) 0

/-- The same as an array. -/
def sageT (A X : (⟨2, ![100000, 64]⟩ : Shape).Idx → EReal) (WlT WrT : (⟨2, ![64, 64]⟩ : Shape).Idx → EReal)
    (b : (⟨2, ![1, 64]⟩ : Shape).Idx → EReal) : (⟨2, ![100000, 64]⟩ : Shape).Idx → EReal :=
  fun i => sageTAt A X WlT WrT b (i 0) (i 1)

theorem sageT_ix2 (A X : (⟨2, ![100000, 64]⟩ : Shape).Idx → EReal) (WlT WrT : (⟨2, ![64, 64]⟩ : Shape).Idx → EReal)
    (b : (⟨2, ![1, 64]⟩ : Shape).Idx → EReal) (p : Fin 100000) (q : Fin 64) :
    sageT A X WlT WrT b (ix2 p q) = sageTAt A X WlT WrT b p q := rfl

/-- The read-out over a transposed weight and a row bias, at node `p`, channel `q`. -/
def linTAt (X : (⟨2, ![100000, 64]⟩ : Shape).Idx → EReal) (WT : (⟨2, ![64, 16]⟩ : Shape).Idx → EReal)
    (b : (⟨2, ![1, 16]⟩ : Shape).Idx → EReal) (p : Fin 100000) (q : Fin 16) : EReal :=
  (∑ k : Fin 64, X (ix2 p k) * WT (ix2 k q)) + b (ix2 (0 : Fin 1) q)

/-- The same as an array. -/
def linT (X : (⟨2, ![100000, 64]⟩ : Shape).Idx → EReal) (WT : (⟨2, ![64, 16]⟩ : Shape).Idx → EReal)
    (b : (⟨2, ![1, 16]⟩ : Shape).Idx → EReal) : (⟨2, ![100000, 16]⟩ : Shape).Idx → EReal :=
  fun i => linTAt X WT b (i 0) (i 1)

theorem linT_ix2 (X : (⟨2, ![100000, 64]⟩ : Shape).Idx → EReal) (WT : (⟨2, ![64, 16]⟩ : Shape).Idx → EReal)
    (b : (⟨2, ![1, 16]⟩ : Shape).Idx → EReal) (p : Fin 100000) (q : Fin 16) :
    linT X WT b (ix2 p q) = linTAt X WT b p q := rfl

end Cert.Sage

end
-- ==== Proof.LibPlainDot.lean ====
/-
  A matrix product into a zero accumulator, read at coordinates.

  For a dot of a `[M, K]` matrix with a `[K, N]` matrix whose dimension numbers contract the left operand's second axis with
  the right operand's first and keep the other two in order, the product accumulated into the zero splat is, at `(p, c)`,

      ∑ k : Fin K, l (p, k) · r (k, c)

  on the extended reals. The dimension record enters only through four facts about its operand indices — the left index at
  output index `i` and contraction position `q` is `(i 0, q)`, the right one `(q, i 1)` — which a concrete record proves by
  unfolding; with them the sum over the record's one-axis contraction shape is re-indexed over `Fin K`.
-/
import Idealize.ShloMosaic.PureOps.Ideal.Laws
import Idealize.ShloMosaic.Lib.ValueIdx

namespace Cert.Lib.PlainDot

open Idealize.ShloMosaic Idealize.ShloMosaic.ValueIdx

/-- The product of an `[M, K]` and a `[K, N]` matrix into the zero splat at `(p, c)`: the sum over `k` of `l (p, k) · r (k, c)`. -/
theorem matmul_zero_ix2 {M K N : ℕ} {φ₁ φ₂ : FTy}
    (D : DotDims ⟨2, ![M, K]⟩ ⟨2, ![K, N]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q (0 : Fin 2)).val = (i (0 : Fin 2)).val)
    (hl1 : ∀ (i : (⟨2, ![M, N]⟩ : Shape).Idx) (q : D.contr.Idx), (D.lhsIdx i q (1 : Fin 2)).val = (q ⟨0, by omega⟩).val)
    (hr0 : ∀ (i : (⟨2, ![M, N]⟩ : Shape).Idx) (q : D.contr.Idx), (D.rhsIdx i q (0 : Fin 2)).val = (q ⟨0, by omega⟩).val)
    (hr1 : ∀ (i : (⟨2, ![M, N]⟩ : Shape).Idx) (q : D.contr.Idx), (D.rhsIdx i q (1 : Fin 2)).val = (i (1 : Fin 2)).val)
    (prec : Option ContractPrecision) (l : FVec Ideal ⟨2, ![M, K]⟩ φ₁) (r : FVec Ideal ⟨2, ![K, N]⟩ φ₂) (p : Fin M) (c : Fin N) :
    FloatOps.matmul D prec l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.Lib.PlainDot
-- ==== Proof.Payload.lean ====
/-
  The three kernel bodies' stored values, read at an index on the extended reals.

  The two layer bodies compute `max (L · Wl + X · Wr + b) 0` on a `[10000, 64]` block: two matrix products into zero
  accumulators, their sum, the `[1, 64]` bias row broadcast down the rows, and the maximum with a zero splat. The read-out
  body computes `X · W + b` into 16 channels. At node `p` and channel `q` these are

      max (∑ k, x0 (p, k) · x2 (k, q) + ∑ k, x1 (p, k) · x3 (k, q) + x4 (0, q)) 0     and     ∑ k, x0 (p, k) · x1 (k, q) + x2 (0, q).
-/
import proofs.«127411_j25804163515003_1_alg».proof.Proof.Gen.KernelIdeal.Skeleton
import proofs.«127411_j25804163515003_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.Sage.Payload

open Cert.KernelIdeal Cert.KernelIdeal.Gen Idealize.ShloMosaic Idealize.ShloMosaic.ValueIdx

/-! ## The two dimension records' operand indices

Each record contracts the left operand's second axis with the right operand's first and keeps the other two in order:
the left index at output index `i` and contraction position `q` is `(i 0, q)`, the right one `(q, i 1)`. -/

theorem d64_lhs0 (i : S10000x64.Idx) (q : dot_S10000x64_S64x64_S10000x64_1_0_0_1_n_n.contr.Idx) :
    (dot_S10000x64_S64x64_S10000x64_1_0_0_1_n_n.lhsIdx i q (0 : Fin 2)).val = (i (0 : Fin 2)).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

theorem d64_lhs1 (i : S10000x64.Idx) (q : dot_S10000x64_S64x64_S10000x64_1_0_0_1_n_n.contr.Idx) :
    (dot_S10000x64_S64x64_S10000x64_1_0_0_1_n_n.lhsIdx i q (1 : Fin 2)).val = (q ⟨0, by decide⟩).val :=
  dot_S10000x64_S64x64_S10000x64_1_0_0_1_n_n.lhsIdx_val_of_single rfl i q

theorem d64_rhs0 (i : S10000x64.Idx) (q : dot_S10000x64_S64x64_S10000x64_1_0_0_1_n_n.contr.Idx) :
    (dot_S10000x64_S64x64_S10000x64_1_0_0_1_n_n.rhsIdx i q (0 : Fin 2)).val = (q ⟨0, by decide⟩).val :=
  dot_S10000x64_S64x64_S10000x64_1_0_0_1_n_n.rhsIdx_val_of_single rfl i q

theorem d64_rhs1 (i : S10000x64.Idx) (q : dot_S10000x64_S64x64_S10000x64_1_0_0_1_n_n.contr.Idx) :
    (dot_S10000x64_S64x64_S10000x64_1_0_0_1_n_n.rhsIdx i q (1 : Fin 2)).val = (i (1 : Fin 2)).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

theorem d16_lhs0 (i : S10000x16.Idx) (q : dot_S10000x64_S64x16_S10000x16_1_0_0_1_n_n.contr.Idx) :
    (dot_S10000x64_S64x16_S10000x16_1_0_0_1_n_n.lhsIdx i q (0 : Fin 2)).val = (i (0 : Fin 2)).val := by
  unfold DotDims.lhsIdx
  rw [dif_neg (show ¬(0 : Fin S10000x64.rank) ∈ dot_S10000x64_S64x16_S10000x16_1_0_0_1_n_n.lhsBatch by decide),
    dif_pos (show (0 : Fin S10000x64.rank) ∈ dot_S10000x64_S64x16_S10000x16_1_0_0_1_n_n.lhsNonContracting by decide)]
  rfl

theorem d16_lhs1 (i : S10000x16.Idx) (q : dot_S10000x64_S64x16_S10000x16_1_0_0_1_n_n.contr.Idx) :
    (dot_S10000x64_S64x16_S10000x16_1_0_0_1_n_n.lhsIdx i q (1 : Fin 2)).val = (q ⟨0, by decide⟩).val :=
  dot_S10000x64_S64x16_S10000x16_1_0_0_1_n_n.lhsIdx_val_of_single rfl i q

theorem d16_rhs0 (i : S10000x16.Idx) (q : dot_S10000x64_S64x16_S10000x16_1_0_0_1_n_n.contr.Idx) :
    (dot_S10000x64_S64x16_S10000x16_1_0_0_1_n_n.rhsIdx i q (0 : Fin 2)).val = (q ⟨0, by decide⟩).val :=
  dot_S10000x64_S64x16_S10000x16_1_0_0_1_n_n.rhsIdx_val_of_single rfl i q

theorem d16_rhs1 (i : S10000x16.Idx) (q : dot_S10000x64_S64x16_S10000x16_1_0_0_1_n_n.contr.Idx) :
    (dot_S10000x64_S64x16_S10000x16_1_0_0_1_n_n.rhsIdx i q (1 : Fin 2)).val = (i (1 : Fin 2)).val := by
  unfold DotDims.rhsIdx
  rw [dif_neg (show ¬(1 : Fin S64x16.rank) ∈ dot_S10000x64_S64x16_S10000x16_1_0_0_1_n_n.rhsBatch by decide),
    dif_pos (show (1 : Fin S64x16.rank) ∈ dot_S10000x64_S64x16_S10000x16_1_0_0_1_n_n.rhsNonContracting by decide)]
  rfl

/-- The `[10000, 64] · [64, 64]` product into the zero splat at `(p, q)`. -/
theorem matmul64_at {φ₁ φ₂ : FTy} (l : FVec Ideal S10000x64 φ₁) (r : FVec Ideal S64x64 φ₂) (p : Fin 10000) (q : Fin 64) :
    matmul dot_S10000x64_S64x64_S10000x64_1_0_0_1_n_n none l r (constant (F := Ideal) S10000x64 .f32 0x00000000#32) (ix2 p q)
      = ∑ k : Fin 64, l (ix2 p k) * r (ix2 k q) :=
  Cert.Lib.PlainDot.matmul_zero_ix2 dot_S10000x64_S64x64_S10000x64_1_0_0_1_n_n rfl rfl d64_lhs0 d64_lhs1 d64_rhs0 d64_rhs1 none l r p q

/-- The `[10000, 64] · [64, 16]` product into the zero splat at `(p, q)`. -/
theorem matmul16_at {φ₁ φ₂ : FTy} (l : FVec Ideal S10000x64 φ₁) (r : FVec Ideal S64x16 φ₂) (p : Fin 10000) (q : Fin 16) :
    matmul dot_S10000x64_S64x16_S10000x16_1_0_0_1_n_n none l r (constant (F := Ideal) S10000x16 .f32 0x00000000#32) (ix2 p q)
      = ∑ k : Fin 64, l (ix2 p k) * r (ix2 k q) :=
  Cert.Lib.PlainDot.matmul_zero_ix2 dot_S10000x64_S64x16_S10000x16_1_0_0_1_n_n rfl rfl d16_lhs0 d16_lhs1 d16_rhs0 d16_rhs1 none l r p q

/-! ## The three stored values at an index

A change of format is the identity on the extended reals and a shape cast of a shape to itself is the identity, so each
stored value at `(p, q)` is the textbook expression in the loaded blocks: the sums over the contracted axis, the bias
row read at `(0, q)`, and for the two layers the maximum with `0`. -/

/-- The first layer's stored value at `(p, q)`. -/
theorem k0_pay1_at (x0 x1 : Vec Ideal S10000x64 .f32) (x2 x3 : Vec Ideal S64x64 .f32) (x4 : Vec Ideal S1x64 .f32) (p : Fin 10000) (q : Fin 64) :
    k0_pay1 (F := Ideal) x0 x1 x2 x3 x4 (ix2 p q) = max ((∑ k : Fin 64, x0 (ix2 p k) * x2 (ix2 k q)) + (∑ k : Fin 64, x1 (ix2 p k) * x3 (ix2 k q)) + x4 (ix2 (0 : Fin 1) q)) 0 := by
  unfold k0_pay1
  simp only [shapeCast_self]
  refine (maximumf_apply _ _ _).trans ?_
  rw [broadcast_apply, addf_apply, addf_apply, matmul64_at, matmul64_at, broadcastTo_1b_ab_apply]
  show max _ (Ideal.ofBits .f32 0x00000000#32) = _
  rw [Ideal.ofBits_zero_f32]
  rfl

/-- The second layer's stored value at `(p, q)`. -/
theorem k1_pay1_at (x0 x1 : Vec Ideal S10000x64 .f32) (x2 x3 : Vec Ideal S64x64 .f32) (x4 : Vec Ideal S1x64 .f32) (p : Fin 10000) (q : Fin 64) :
    k1_pay1 (F := Ideal) x0 x1 x2 x3 x4 (ix2 p q) = max ((∑ k : Fin 64, x0 (ix2 p k) * x2 (ix2 k q)) + (∑ k : Fin 64, x1 (ix2 p k) * x3 (ix2 k q)) + x4 (ix2 (0 : Fin 1) q)) 0 := by
  unfold k1_pay1
  simp only [shapeCast_self]
  refine (maximumf_apply _ _ _).trans ?_
  rw [broadcast_apply, addf_apply, addf_apply, matmul64_at, matmul64_at, broadcastTo_1b_ab_apply]
  show max _ (Ideal.ofBits .f32 0x00000000#32) = _
  rw [Ideal.ofBits_zero_f32]
  rfl

/-- The read-out's stored value at `(p, q)`. -/
theorem k2_pay1_at (x0 : Vec Ideal S10000x64 .f32) (x1 : Vec Ideal S64x16 .f32) (x2 : Vec Ideal S1x16 .f32) (p : Fin 10000) (q : Fin 16) :
    k2_pay1 (F := Ideal) x0 x1 x2 (ix2 p q) = (∑ k : Fin 64, x0 (ix2 p k) * x1 (ix2 k q)) + x2 (ix2 (0 : Fin 1) q) := by
  unfold k2_pay1
  simp only [shapeCast_self]
  refine (addf_apply _ _ _).trans ?_
  rw [matmul16_at, broadcastTo_1b_ab_apply]
  rfl

end Cert.Sage.Payload

end
-- ==== Proof.Region0.lean ====
/-
  What kernel 0 (a SAGE layer) leaves in its output array, as one function of the arrays it finds.

  The grid has ten points; point `t` stages rows `10000 t … 10000 t + 9999` of the aggregated and of the node features, the
  two whole `[64, 64]` weights and the `[1, 64]` bias row, and writes back rows `10000 t … 10000 t + 9999` of the output. The body's one
  store holds `max (a · wl + x · wr + b) 0` of the staged blocks, so entry `(p, q)` of block `t` is the layer at row
  `10000 t + p`, channel `q` of the whole arrays: the row blocks are restrictions of ONE whole-array function, and the ten
  blocks tile the output.
-/
import proofs.«127411_j25804163515003_1_alg».proof.Proof.Gen.KernelIdeal.Frame
import proofs.«127411_j25804163515003_1_alg».proof.Proof.SpecT
import proofs.«127411_j25804163515003_1_alg».proof.Proof.Payload
import Idealize.ShloMosaic.Lib.Pipeline.Value
import Idealize.ShloMosaic.Lib.Tactic

set_option maxRecDepth 16384

noncomputable section

namespace Cert.Sage.Region0

open Cert.KernelIdeal Cert.KernelIdeal.Gen Cert.Sage
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored block at `(p, q)`: the layer of the staged blocks. -/
theorem out_at (x0 x1 : Vec Ideal S10000x64 .f32) (x2 x3 : Vec Ideal S64x64 .f32) (x4 : Vec Ideal S1x64 .f32) (p : Fin 10000) (q : Fin 64) :
    out0_5 (F := Ideal) x0 x1 x2 x3 x4 (ix2 p q)
      = max ((∑ k : Fin 64, x0 (ix2 p k) * x2 (ix2 k q)) + (∑ k : Fin 64, x1 (ix2 p k) * x3 (ix2 k q)) + x4 (ix2 (0 : Fin 1) q)) 0 := by
  unfold out0_5
  rw [View.canon_unit_zero hz]
  simp only [View.ld_unit_zero (S := S10000x64) hz, View.ld_unit_zero (S := S64x64) hz, View.ld_unit_zero (S := S1x64) hz]
  exact Payload.k0_pay1_at x0 x1 x2 x3 x4 p q

/-- The printed index maps over the grid: the two row-blocked inputs and the output sit at block row `t`, column block 0; the
    weights and the bias at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of block `t` is row `10000 t + p` of the array. -/
def row (t : Fin cfg0.N) (p : Fin 10000) : Fin 100000 :=
  ⟨t.val * 10000 + p.val, by have := t.isLt; have hN : cfg0.N = 10 := N_0; omega⟩

/-- Where entry `(p, k)` of block `t` of the aggregated features sits in its array. -/
theorem emb0 (t : Fin cfg0.N) (p : Fin 10000) (k : Fin 64) :
    ((cfg0.win 0).blk t).view.emb (ix2 p k) = ix2 (row t p) k := by
  obtain ⟨e0, e1, -⟩ := idx_facts t
  funext a; apply Fin.ext
  match a with
  | ⟨0, _⟩ => show win0_0.index t (0 : Fin 2) * 10000 + 1 * p.val = t.val * 10000 + p.val; rw [e0]; omega
  | ⟨1, _⟩ => show win0_0.index t (1 : Fin 2) * 64 + 1 * k.val = k.val; rw [e1]; omega

/-- Where entry `(p, k)` of block `t` of the node features sits in its array. -/
theorem emb1 (t : Fin cfg0.N) (p : Fin 10000) (k : Fin 64) :
    ((cfg0.win 1).blk t).view.emb (ix2 p k) = ix2 (row t p) k := by
  obtain ⟨-, -, e0, e1, -⟩ := idx_facts t
  funext a; apply Fin.ext
  match a with
  | ⟨0, _⟩ => show win0_1.index t (0 : Fin 2) * 10000 + 1 * p.val = t.val * 10000 + p.val; rw [e0]; omega
  | ⟨1, _⟩ => show win0_1.index t (1 : Fin 2) * 64 + 1 * k.val = k.val; rw [e1]; omega

/-- The two weights are staged whole. -/
theorem emb2 (t : Fin cfg0.N) (k q : Fin 64) : ((cfg0.win 2).blk t).view.emb (ix2 k q) = ix2 k q := by
  obtain ⟨-, -, -, -, e0, e1, -⟩ := idx_facts t
  funext a; apply Fin.ext
  match a with
  | ⟨0, _⟩ => show win0_2.index t (0 : Fin 2) * 64 + 1 * k.val = k.val; rw [e0]; omega
  | ⟨1, _⟩ => show win0_2.index t (1 : Fin 2) * 64 + 1 * q.val = q.val; rw [e1]; omega

theorem emb3 (t : Fin cfg0.N) (k q : Fin 64) : ((cfg0.win 3).blk t).view.emb (ix2 k q) = ix2 k q := by
  obtain ⟨-, -, -, -, -, -, e0, e1, -⟩ := idx_facts t
  funext a; apply Fin.ext
  match a with
  | ⟨0, _⟩ => show win0_3.index t (0 : Fin 2) * 64 + 1 * k.val = k.val; rw [e0]; omega
  | ⟨1, _⟩ => show win0_3.index t (1 : Fin 2) * 64 + 1 * q.val = q.val; rw [e1]; omega

/-- The bias row is staged whole. -/
theorem emb4 (t : Fin cfg0.N) (q : Fin 64) : ((cfg0.win 4).blk t).view.emb (ix2 (0 : Fin 1) q) = ix2 (0 : Fin 1) q := by
  obtain ⟨-, -, -, -, -, -, -, -, e0, e1, -⟩ := idx_facts t
  funext a; apply Fin.ext
  match a with
  | ⟨0, _⟩ => show win0_4.index t (0 : Fin 2) * 1 + 1 * 0 = 0; rw [e0]
  | ⟨1, _⟩ => show win0_4.index t (1 : Fin 2) * 64 + 1 * q.val = q.val; rw [e1]; omega

/-- Where entry `(p, q)` of block `t` of the output sits in its array. -/
theorem emb5 (t : Fin cfg0.N) (p : Fin 10000) (q : Fin 64) :
    ((cfg0.win 5).blk t).view.emb (ix2 p q) = ix2 (row t p) q := by
  obtain ⟨-, -, -, -, -, -, -, -, -, -, e0, e1⟩ := idx_facts t
  funext a; apply Fin.ext
  match a with
  | ⟨0, _⟩ => show win0_5.index t (0 : Fin 2) * 10000 + 1 * p.val = t.val * 10000 + p.val; rw [e0]; omega
  | ⟨1, _⟩ => show win0_5.index t (1 : Fin 2) * 64 + 1 * q.val = q.val; rw [e1]; omega

/-- Each staged block read at an entry is its array read where the block sits. -/
theorem rd0 (c : Dev nD) (t : Fin cfg0.N) (p : Fin 10000) (k : Fin 64) :
    iblk0 V c 0 t (ix2 p k) = (V c main_v24 : S100000x64.Idx → EReal) (ix2 (row t p) k) := by
  unfold iblk0; rw [View.read_apply]
  show (V c main_v24 : S100000x64.Idx → EReal) (((cfg0.win 0).blk t).view.emb (ix2 p k)) = _
  rw [emb0]
theorem rd1 (c : Dev nD) (t : Fin cfg0.N) (p : Fin 10000) (k : Fin 64) :
    iblk0 V c 1 t (ix2 p k) = (V c main_arg0 : S100000x64.Idx → EReal) (ix2 (row t p) k) := by
  unfold iblk0; rw [View.read_apply]
  show (V c main_arg0 : S100000x64.Idx → EReal) (((cfg0.win 1).blk t).view.emb (ix2 p k)) = _
  rw [emb1]
theorem rd2 (c : Dev nD) (t : Fin cfg0.N) (k q : Fin 64) :
    iblk0 V c 2 t (ix2 k q) = (V c main_v25 : S64x64.Idx → EReal) (ix2 k q) := by
  unfold iblk0; rw [View.read_apply]
  show (V c main_v25 : S64x64.Idx → EReal) (((cfg0.win 2).blk t).view.emb (ix2 k q)) = _
  rw [emb2]
theorem rd3 (c : Dev nD) (t : Fin cfg0.N) (k q : Fin 64) :
    iblk0 V c 3 t (ix2 k q) = (V c main_v26 : S64x64.Idx → EReal) (ix2 k q) := by
  unfold iblk0; rw [View.read_apply]
  show (V c main_v26 : S64x64.Idx → EReal) (((cfg0.win 3).blk t).view.emb (ix2 k q)) = _
  rw [emb3]
theorem rd4 (c : Dev nD) (t : Fin cfg0.N) (q : Fin 64) :
    iblk0 V c 4 t (ix2 (0 : Fin 1) q) = (V c main_v27 : S1x64.Idx → EReal) (ix2 (0 : Fin 1) q) := by
  unfold iblk0; rw [View.read_apply]
  show (V c main_v27 : S1x64.Idx → EReal) (((cfg0.win 4).blk t).view.emb (ix2 (0 : Fin 1) q)) = _
  rw [emb4]

/-- What point `t` writes back is block `t` of the layer of the arrays the kernel finds. -/
theorem flushed_eq (c : Dev nD) (t : Fin cfg0.N) :
    (dat0 V c).flushed 5 t = ((cfg0.win 5).blk t).view.read (Elt Ideal)
      (sageT (V c main_v24) (V c main_arg0) (V c main_v25) (V c main_v26) (V c main_v27)) := by
  show (cfg0.win 5).cut (grid0.coords t) ((dat0 V c).after 5 t) = _
  rw [after0_5]
  funext j
  obtain ⟨p, q, rfl⟩ : ∃ (p : Fin 10000) (q : Fin 64), j = ix2 p q := ⟨j 0, j 1, eq_ix2 j⟩
  rw [View.read_apply]
  show out0_5 (iblk0 V c 0 t) (iblk0 V c 1 t) (iblk0 V c 2 t) (iblk0 V c 3 t) (iblk0 V c 4 t) (ix2 p q)
    = sageT (V c main_v24) (V c main_arg0) (V c main_v25) (V c main_v26) (V c main_v27) (((cfg0.win 5).blk t).view.emb (ix2 p q))
  rw [out_at, emb5, sageT_ix2]
  unfold sageTAt
  simp only [rd0, rd1, rd2, rd3, rd4]

/-- An index of the output array is in point `t`'s block iff each coordinate is in the block's range on its axis. -/
theorem mem_blk (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v28).slice (win0_5.rect t)).set ↔ _
  rw [View.set_slice_whole, Rect.mem_set_unit]
  exact Iff.rfl

/-- Row `r` of the output is in the block of point `r / 10000`: the ten blocks cover the array. -/
theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by omega⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 10000 ≤ (i 0).val ∧ (i 0).val < win0_5.index t (0 : Fin 2) * 10000 + 10000
    rw [e0, ht]; omega
  | ⟨1, _⟩ =>
    show win0_5.index t (1 : Fin 2) * 64 ≤ (i 1).val ∧ (i 1).val < win0_5.index t (1 : Fin 2) * 64 + 64
    rw [e1]; omega

/-- The output array after the kernel: the layer of the arrays it found. -/
theorem final (c : Dev nD) : (dat0 V c).arrAt 5 cfg0.N
    = sageT (V c main_v24) (V c main_arg0) (V c main_v25) (V c main_v26) (V c main_v27) :=
  (dat0 V c).arrAt_eq_of_cover 5 _ (fun t _ => flushed_eq V c t) cover

end Cert.Sage.Region0

end
-- ==== Proof.Region1.lean ====
/-
  What kernel 1 (a SAGE layer) leaves in its output array, as one function of the arrays it finds.

  The grid has ten points; point `t` stages rows `10000 t … 10000 t + 9999` of the aggregated and of the node features, the
  two whole `[64, 64]` weights and the `[1, 64]` bias row, and writes back rows `10000 t … 10000 t + 9999` of the output. The body's one
  store holds `max (a · wl + x · wr + b) 0` of the staged blocks, so entry `(p, q)` of block `t` is the layer at row
  `10000 t + p`, channel `q` of the whole arrays: the row blocks are restrictions of ONE whole-array function, and the ten
  blocks tile the output.
-/
import proofs.«127411_j25804163515003_1_alg».proof.Proof.Gen.KernelIdeal.Frame
import proofs.«127411_j25804163515003_1_alg».proof.Proof.SpecT
import proofs.«127411_j25804163515003_1_alg».proof.Proof.Payload
import Idealize.ShloMosaic.Lib.Pipeline.Value
import Idealize.ShloMosaic.Lib.Tactic

set_option maxRecDepth 16384

noncomputable section

namespace Cert.Sage.Region1

open Cert.KernelIdeal Cert.KernelIdeal.Gen Cert.Sage
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored block at `(p, q)`: the layer of the staged blocks. -/
theorem out_at (x0 x1 : Vec Ideal S10000x64 .f32) (x2 x3 : Vec Ideal S64x64 .f32) (x4 : Vec Ideal S1x64 .f32) (p : Fin 10000) (q : Fin 64) :
    out1_5 (F := Ideal) x0 x1 x2 x3 x4 (ix2 p q)
      = max ((∑ k : Fin 64, x0 (ix2 p k) * x2 (ix2 k q)) + (∑ k : Fin 64, x1 (ix2 p k) * x3 (ix2 k q)) + x4 (ix2 (0 : Fin 1) q)) 0 := by
  unfold out1_5
  rw [View.canon_unit_zero hz]
  simp only [View.ld_unit_zero (S := S10000x64) hz, View.ld_unit_zero (S := S64x64) hz, View.ld_unit_zero (S := S1x64) hz]
  exact Payload.k1_pay1_at x0 x1 x2 x3 x4 p q

/-- The printed index maps over the grid: the two row-blocked inputs and the output sit at block row `t`, column block 0; the
    weights and the bias at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of block `t` is row `10000 t + p` of the array. -/
def row (t : Fin cfg1.N) (p : Fin 10000) : Fin 100000 :=
  ⟨t.val * 10000 + p.val, by have := t.isLt; have hN : cfg1.N = 10 := N_1; omega⟩

/-- Where entry `(p, k)` of block `t` of the aggregated features sits in its array. -/
theorem emb0 (t : Fin cfg1.N) (p : Fin 10000) (k : Fin 64) :
    ((cfg1.win 0).blk t).view.emb (ix2 p k) = ix2 (row t p) k := by
  obtain ⟨e0, e1, -⟩ := idx_facts t
  funext a; apply Fin.ext
  match a with
  | ⟨0, _⟩ => show win1_0.index t (0 : Fin 2) * 10000 + 1 * p.val = t.val * 10000 + p.val; rw [e0]; omega
  | ⟨1, _⟩ => show win1_0.index t (1 : Fin 2) * 64 + 1 * k.val = k.val; rw [e1]; omega

/-- Where entry `(p, k)` of block `t` of the node features sits in its array. -/
theorem emb1 (t : Fin cfg1.N) (p : Fin 10000) (k : Fin 64) :
    ((cfg1.win 1).blk t).view.emb (ix2 p k) = ix2 (row t p) k := by
  obtain ⟨-, -, e0, e1, -⟩ := idx_facts t
  funext a; apply Fin.ext
  match a with
  | ⟨0, _⟩ => show win1_1.index t (0 : Fin 2) * 10000 + 1 * p.val = t.val * 10000 + p.val; rw [e0]; omega
  | ⟨1, _⟩ => show win1_1.index t (1 : Fin 2) * 64 + 1 * k.val = k.val; rw [e1]; omega

/-- The two weights are staged whole. -/
theorem emb2 (t : Fin cfg1.N) (k q : Fin 64) : ((cfg1.win 2).blk t).view.emb (ix2 k q) = ix2 k q := by
  obtain ⟨-, -, -, -, e0, e1, -⟩ := idx_facts t
  funext a; apply Fin.ext
  match a with
  | ⟨0, _⟩ => show win1_2.index t (0 : Fin 2) * 64 + 1 * k.val = k.val; rw [e0]; omega
  | ⟨1, _⟩ => show win1_2.index t (1 : Fin 2) * 64 + 1 * q.val = q.val; rw [e1]; omega

theorem emb3 (t : Fin cfg1.N) (k q : Fin 64) : ((cfg1.win 3).blk t).view.emb (ix2 k q) = ix2 k q := by
  obtain ⟨-, -, -, -, -, -, e0, e1, -⟩ := idx_facts t
  funext a; apply Fin.ext
  match a with
  | ⟨0, _⟩ => show win1_3.index t (0 : Fin 2) * 64 + 1 * k.val = k.val; rw [e0]; omega
  | ⟨1, _⟩ => show win1_3.index t (1 : Fin 2) * 64 + 1 * q.val = q.val; rw [e1]; omega

/-- The bias row is staged whole. -/
theorem emb4 (t : Fin cfg1.N) (q : Fin 64) : ((cfg1.win 4).blk t).view.emb (ix2 (0 : Fin 1) q) = ix2 (0 : Fin 1) q := by
  obtain ⟨-, -, -, -, -, -, -, -, e0, e1, -⟩ := idx_facts t
  funext a; apply Fin.ext
  match a with
  | ⟨0, _⟩ => show win1_4.index t (0 : Fin 2) * 1 + 1 * 0 = 0; rw [e0]
  | ⟨1, _⟩ => show win1_4.index t (1 : Fin 2) * 64 + 1 * q.val = q.val; rw [e1]; omega

/-- Where entry `(p, q)` of block `t` of the output sits in its array. -/
theorem emb5 (t : Fin cfg1.N) (p : Fin 10000) (q : Fin 64) :
    ((cfg1.win 5).blk t).view.emb (ix2 p q) = ix2 (row t p) q := by
  obtain ⟨-, -, -, -, -, -, -, -, -, -, e0, e1⟩ := idx_facts t
  funext a; apply Fin.ext
  match a with
  | ⟨0, _⟩ => show win1_5.index t (0 : Fin 2) * 10000 + 1 * p.val = t.val * 10000 + p.val; rw [e0]; omega
  | ⟨1, _⟩ => show win1_5.index t (1 : Fin 2) * 64 + 1 * q.val = q.val; rw [e1]; omega

/-- Each staged block read at an entry is its array read where the block sits. -/
theorem rd0 (c : Dev nD) (t : Fin cfg1.N) (p : Fin 10000) (k : Fin 64) :
    iblk1 V c 0 t (ix2 p k) = (V c main_v41 : S100000x64.Idx → EReal) (ix2 (row t p) k) := by
  unfold iblk1; rw [View.read_apply]
  show (V c main_v41 : S100000x64.Idx → EReal) (((cfg1.win 0).blk t).view.emb (ix2 p k)) = _
  rw [emb0]
theorem rd1 (c : Dev nD) (t : Fin cfg1.N) (p : Fin 10000) (k : Fin 64) :
    iblk1 V c 1 t (ix2 p k) = (V c main_v28 : S100000x64.Idx → EReal) (ix2 (row t p) k) := by
  unfold iblk1; rw [View.read_apply]
  show (V c main_v28 : S100000x64.Idx → EReal) (((cfg1.win 1).blk t).view.emb (ix2 p k)) = _
  rw [emb1]
theorem rd2 (c : Dev nD) (t : Fin cfg1.N) (k q : Fin 64) :
    iblk1 V c 2 t (ix2 k q) = (V c main_v42 : S64x64.Idx → EReal) (ix2 k q) := by
  unfold iblk1; rw [View.read_apply]
  show (V c main_v42 : S64x64.Idx → EReal) (((cfg1.win 2).blk t).view.emb (ix2 k q)) = _
  rw [emb2]
theorem rd3 (c : Dev nD) (t : Fin cfg1.N) (k q : Fin 64) :
    iblk1 V c 3 t (ix2 k q) = (V c main_v43 : S64x64.Idx → EReal) (ix2 k q) := by
  unfold iblk1; rw [View.read_apply]
  show (V c main_v43 : S64x64.Idx → EReal) (((cfg1.win 3).blk t).view.emb (ix2 k q)) = _
  rw [emb3]
theorem rd4 (c : Dev nD) (t : Fin cfg1.N) (q : Fin 64) :
    iblk1 V c 4 t (ix2 (0 : Fin 1) q) = (V c main_v44 : S1x64.Idx → EReal) (ix2 (0 : Fin 1) q) := by
  unfold iblk1; rw [View.read_apply]
  show (V c main_v44 : S1x64.Idx → EReal) (((cfg1.win 4).blk t).view.emb (ix2 (0 : Fin 1) q)) = _
  rw [emb4]

/-- What point `t` writes back is block `t` of the layer of the arrays the kernel finds. -/
theorem flushed_eq (c : Dev nD) (t : Fin cfg1.N) :
    (dat1 V c).flushed 5 t = ((cfg1.win 5).blk t).view.read (Elt Ideal)
      (sageT (V c main_v41) (V c main_v28) (V c main_v42) (V c main_v43) (V c main_v44)) := by
  show (cfg1.win 5).cut (grid1.coords t) ((dat1 V c).after 5 t) = _
  rw [after1_5]
  funext j
  obtain ⟨p, q, rfl⟩ : ∃ (p : Fin 10000) (q : Fin 64), j = ix2 p q := ⟨j 0, j 1, eq_ix2 j⟩
  rw [View.read_apply]
  show out1_5 (iblk1 V c 0 t) (iblk1 V c 1 t) (iblk1 V c 2 t) (iblk1 V c 3 t) (iblk1 V c 4 t) (ix2 p q)
    = sageT (V c main_v41) (V c main_v28) (V c main_v42) (V c main_v43) (V c main_v44) (((cfg1.win 5).blk t).view.emb (ix2 p q))
  rw [out_at, emb5, sageT_ix2]
  unfold sageTAt
  simp only [rd0, rd1, rd2, rd3, rd4]

/-- An index of the output array is in point `t`'s block iff each coordinate is in the block's range on its axis. -/
theorem mem_blk (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v45).slice (win1_5.rect t)).set ↔ _
  rw [View.set_slice_whole, Rect.mem_set_unit]
  exact Iff.rfl

/-- Row `r` of the output is in the block of point `r / 10000`: the ten blocks cover the array. -/
theorem cover (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 10 := N_1
  obtain ⟨t, ht⟩ : ∃ t : Fin cfg1.N, t.val = (i 0).val / 10000 := ⟨⟨(i 0).val / 10000, by omega⟩, rfl⟩
  obtain ⟨-, -, -, -, -, -, -, -, -, -, e0, e1⟩ := idx_facts t
  refine ⟨t, flush1_5 t, ?_⟩
  rw [mem_blk]
  intro a
  match a with
  | ⟨0, _⟩ =>
    show win1_5.index t (0 : Fin 2) * 10000 ≤ (i 0).val ∧ (i 0).val < win1_5.index t (0 : Fin 2) * 10000 + 10000
    rw [e0, ht]; omega
  | ⟨1, _⟩ =>
    show win1_5.index t (1 : Fin 2) * 64 ≤ (i 1).val ∧ (i 1).val < win1_5.index t (1 : Fin 2) * 64 + 64
    rw [e1]; omega

/-- The output array after the kernel: the layer of the arrays it found. -/
theorem final (c : Dev nD) : (dat1 V c).arrAt 5 cfg1.N
    = sageT (V c main_v41) (V c main_v28) (V c main_v42) (V c main_v43) (V c main_v44) :=
  (dat1 V c).arrAt_eq_of_cover 5 _ (fun t _ => flushed_eq V c t) cover

end Cert.Sage.Region1

end
-- ==== Proof.Region2.lean ====
/-
  What kernel 2 (the read-out) leaves in its output array, as one function of the arrays it finds.

  The grid has ten points; point `t` stages rows `10000 t … 10000 t + 9999` of the features, the whole `[64, 16]` weight and the
  `[1, 16]` bias row, and writes back rows `10000 t … 10000 t + 9999` of the `[100000, 16]` output. The body's one store holds
  `x · w + b` of the staged blocks, so entry `(p, q)` of block `t` is the read-out at row `10000 t + p`, channel `q` of the whole
  arrays, and the ten blocks tile the output.
-/
import proofs.«127411_j25804163515003_1_alg».proof.Proof.Gen.KernelIdeal.Frame
import proofs.«127411_j25804163515003_1_alg».proof.Proof.SpecT
import proofs.«127411_j25804163515003_1_alg».proof.Proof.Payload
import Idealize.ShloMosaic.Lib.Pipeline.Value
import Idealize.ShloMosaic.Lib.Tactic

set_option maxRecDepth 16384

noncomputable section

namespace Cert.Sage.Region2

open Cert.KernelIdeal Cert.KernelIdeal.Gen Cert.Sage
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored block at `(p, q)`: the read-out of the staged blocks. -/
theorem out_at (x0 : Vec Ideal S10000x64 .f32) (x1 : Vec Ideal S64x16 .f32) (x2 : Vec Ideal S1x16 .f32) (p : Fin 10000) (q : Fin 16) :
    out2_3 (F := Ideal) x0 x1 x2 (ix2 p q) = (∑ k : Fin 64, x0 (ix2 p k) * x1 (ix2 k q)) + x2 (ix2 (0 : Fin 1) q) := by
  unfold out2_3
  rw [View.canon_unit_zero hz]
  simp only [View.ld_unit_zero (S := S10000x64) hz, View.ld_unit_zero (S := S64x16) hz, View.ld_unit_zero (S := S1x16) hz]
  exact Payload.k2_pay1_at x0 x1 x2 p q

/-- The printed index maps over the grid: the row-blocked input and the output sit at block row `t`, column block 0; the
    weight and the bias at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row `p` of block `t` is row `10000 t + p` of the array. -/
def row (t : Fin cfg2.N) (p : Fin 10000) : Fin 100000 :=
  ⟨t.val * 10000 + p.val, by have := t.isLt; have hN : cfg2.N = 10 := N_2; omega⟩

/-- Where entry `(p, k)` of block `t` of the features sits in its array. -/
theorem emb0 (t : Fin cfg2.N) (p : Fin 10000) (k : Fin 64) :
    ((cfg2.win 0).blk t).view.emb (ix2 p k) = ix2 (row t p) k := by
  obtain ⟨e0, e1, -⟩ := idx_facts t
  funext a; apply Fin.ext
  match a with
  | ⟨0, _⟩ => show win2_0.index t (0 : Fin 2) * 10000 + 1 * p.val = t.val * 10000 + p.val; rw [e0]; omega
  | ⟨1, _⟩ => show win2_0.index t (1 : Fin 2) * 64 + 1 * k.val = k.val; rw [e1]; omega

/-- The weight is staged whole. -/
theorem emb1 (t : Fin cfg2.N) (k : Fin 64) (q : Fin 16) : ((cfg2.win 1).blk t).view.emb (ix2 k q) = ix2 k q := by
  obtain ⟨-, -, e0, e1, -⟩ := idx_facts t
  funext a; apply Fin.ext
  match a with
  | ⟨0, _⟩ => show win2_1.index t (0 : Fin 2) * 64 + 1 * k.val = k.val; rw [e0]; omega
  | ⟨1, _⟩ => show win2_1.index t (1 : Fin 2) * 16 + 1 * q.val = q.val; rw [e1]; omega

/-- The bias row is staged whole. -/
theorem emb2 (t : Fin cfg2.N) (q : Fin 16) : ((cfg2.win 2).blk t).view.emb (ix2 (0 : Fin 1) q) = ix2 (0 : Fin 1) q := by
  obtain ⟨-, -, -, -, e0, e1, -⟩ := idx_facts t
  funext a; apply Fin.ext
  match a with
  | ⟨0, _⟩ => show win2_2.index t (0 : Fin 2) * 1 + 1 * 0 = 0; rw [e0]
  | ⟨1, _⟩ => show win2_2.index t (1 : Fin 2) * 16 + 1 * q.val = q.val; rw [e1]; omega

/-- Where entry `(p, q)` of block `t` of the output sits in its array. -/
theorem emb3 (t : Fin cfg2.N) (p : Fin 10000) (q : Fin 16) :
    ((cfg2.win 3).blk t).view.emb (ix2 p q) = ix2 (row t p) q := by
  obtain ⟨-, -, -, -, -, -, e0, e1⟩ := idx_facts t
  funext a; apply Fin.ext
  match a with
  | ⟨0, _⟩ => show win2_3.index t (0 : Fin 2) * 10000 + 1 * p.val = t.val * 10000 + p.val; rw [e0]; omega
  | ⟨1, _⟩ => show win2_3.index t (1 : Fin 2) * 16 + 1 * q.val = q.val; rw [e1]; omega

/-- Each staged block read at an entry is its array read where the block sits. -/
theorem rd0 (c : Dev nD) (t : Fin cfg2.N) (p : Fin 10000) (k : Fin 64) :
    iblk2 V c 0 t (ix2 p k) = (V c main_v45 : S100000x64.Idx → EReal) (ix2 (row t p) k) := by
  unfold iblk2; rw [View.read_apply]
  show (V c main_v45 : S100000x64.Idx → EReal) (((cfg2.win 0).blk t).view.emb (ix2 p k)) = _
  rw [emb0]
theorem rd1 (c : Dev nD) (t : Fin cfg2.N) (k : Fin 64) (q : Fin 16) :
    iblk2 V c 1 t (ix2 k q) = (V c main_v46 : S64x16.Idx → EReal) (ix2 k q) := by
  unfold iblk2; rw [View.read_apply]
  show (V c main_v46 : S64x16.Idx → EReal) (((cfg2.win 1).blk t).view.emb (ix2 k q)) = _
  rw [emb1]
theorem rd2 (c : Dev nD) (t : Fin cfg2.N) (q : Fin 16) :
    iblk2 V c 2 t (ix2 (0 : Fin 1) q) = (V c main_v47 : S1x16.Idx → EReal) (ix2 (0 : Fin 1) q) := by
  unfold iblk2; rw [View.read_apply]
  show (V c main_v47 : S1x16.Idx → EReal) (((cfg2.win 2).blk t).view.emb (ix2 (0 : Fin 1) q)) = _
  rw [emb2]

/-- What point `t` writes back is block `t` of the read-out of the arrays the kernel finds. -/
theorem flushed_eq (c : Dev nD) (t : Fin cfg2.N) :
    (dat2 V c).flushed 3 t = ((cfg2.win 3).blk t).view.read (Elt Ideal) (linT (V c main_v45) (V c main_v46) (V c main_v47)) := by
  show (cfg2.win 3).cut (grid2.coords t) ((dat2 V c).after 3 t) = _
  rw [after2_3]
  funext j
  obtain ⟨p, q, rfl⟩ : ∃ (p : Fin 10000) (q : Fin 16), j = ix2 p q := ⟨j 0, j 1, eq_ix2 j⟩
  rw [View.read_apply]
  show out2_3 (iblk2 V c 0 t) (iblk2 V c 1 t) (iblk2 V c 2 t) (ix2 p q)
    = linT (V c main_v45) (V c main_v46) (V c main_v47) (((cfg2.win 3).blk t).view.emb (ix2 p q))
  rw [out_at, emb3, linT_ix2]
  unfold linTAt
  simp only [rd0, rd1, rd2]

/-- An index of the output array is in point `t`'s block iff each coordinate is in the block's range on its axis. -/
theorem mem_blk (t : Fin cfg2.N) (i : S100000x16.Idx) :
    i ∈ ((cfg2.win 3).blk t).view.set ↔ ∀ a : Fin 2, win2_3.index t a * S10000x16.size a ≤ (i a).val ∧ (i a).val < win2_3.index t a * S10000x16.size a + S10000x16.size a := by
  show i ∈ ((View.whole main_v48).slice (win2_3.rect t)).set ↔ _
  rw [View.set_slice_whole, Rect.mem_set_unit]
  exact Iff.rfl

/-- Row `r` of the output is in the block of point `r / 10000`: the ten blocks cover the array. -/
theorem cover (i : S100000x16.Idx) : ∃ t : Fin cfg2.N, (cfg2.win 3).flush t = true ∧ i ∈ ((cfg2.win 3).blk t).view.set := by
  have hi0 : (i 0).val < 100000 := (i 0).isLt
  have hi1 : (i 1).val < 16 := (i 1).isLt
  have hN : cfg2.N = 10 := N_2
  obtain ⟨t, ht⟩ : ∃ t : Fin cfg2.N, t.val = (i 0).val / 10000 := ⟨⟨(i 0).val / 10000, by omega⟩, rfl⟩
  obtain ⟨-, -, -, -, -, -, e0, e1⟩ := idx_facts t
  refine ⟨t, flush2_3 t, ?_⟩
  rw [mem_blk]
  intro a
  match a with
  | ⟨0, _⟩ =>
    show win2_3.index t (0 : Fin 2) * 10000 ≤ (i 0).val ∧ (i 0).val < win2_3.index t (0 : Fin 2) * 10000 + 10000
    rw [e0, ht]; omega
  | ⟨1, _⟩ =>
    show win2_3.index t (1 : Fin 2) * 16 ≤ (i 1).val ∧ (i 1).val < win2_3.index t (1 : Fin 2) * 16 + 16
    rw [e1]; omega

/-- The output array after the kernel: the read-out of the arrays it found. -/
theorem final (c : Dev nD) : (dat2 V c).arrAt 3 cfg2.N = linT (V c main_v45) (V c main_v46) (V c main_v47) :=
  (dat2 V c).arrAt_eq_of_cover 3 _ (fun t _ => flushed_eq V c t) cover

end Cert.Sage.Region2

end
-- ==== Proof.Agg.lean ====
/-
  The mean aggregation, as the kernel's program computes it on the host, is the reference's.

  Both programs gather the rows of the features at each edge's source and add them into the row of the edge's destination, the
  same two operations on the same index vectors; they count each node's incoming edges by adding ones the same way. The
  kernel's program multiplies the sums by the reciprocal `1 / max (count, 1)`, the reference divides them by
  `max (count, 1)`. A count clamped below by one is not zero, and for a nonzero divisor the product with the reciprocal IS the
  quotient on the extended reals, so the two aggregated arrays agree entry by entry whatever the sums are: neither the
  gather nor the scatter is ever opened.
-/
import proofs.«127411_j25804163515003_1_alg».proof.KernelIdeal
import proofs.«127411_j25804163515003_1_alg».proof.Proof.Gen.KernelIdeal
import proofs.«127411_j25804163515003_1_alg».proof.Proof.Gen.ReferenceIdeal.Read
import proofs.«127411_j25804163515003_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.Sage.Agg

open Cert.KernelIdeal Cert.KernelIdeal.Gen Cert.Sage
open Idealize.ShloMosaic Idealize.ShloMosaic.ValueIdx

/-- The f32 pattern of one denotes the real number one. -/
theorem ofBits_one_f32 : Ideal.ofBits .f32 0x3F800000#32 = 1 := by
  simp [Ideal.ofBits, Ideal.ieee]
  rw [← EReal.coe_mul]
  norm_num

/-- Each edge's source node: row 0 of the edge list. -/
def src (E : IVec S2x1600000 32) : IVec S1600000 32 :=
  shapeCast S1600000 (extractStridedSlice S1x1600000 ![0, 0] E slices_S2x1600000_S1x1600000_0_0) shapeCasts_S1x1600000_S1600000

/-- Each edge's destination node: row 1 of the edge list. -/
def dst (E : IVec S2x1600000 32) : IVec S1600000 32 :=
  shapeCast S1600000 (extractStridedSlice S1x1600000 ![1, 0] E slices_S2x1600000_S1x1600000_1_0) shapeCasts_S1x1600000_S1600000

/-- The vector of ones over the nodes. -/
def ones : FVec Ideal S100000 .f32 :=
  broadcastInDim S100000 ![] bcast_S_S100000 (constant (F := Ideal) S_ .f32 0x3F800000#32)

/-- Each node's number of incoming edges: ones added into the destinations. -/
def cnt (d : IVec S1600000 32) : FVec Ideal S100000 .f32 :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 d)
    (broadcastInDim S1600000 ![] bcast_S_S1600000 (constant (F := Ideal) S_ .f32 0x3F800000#32))

/-- The reciprocal of the count clamped below by one. -/
def rinv (d : IVec S1600000 32) : FVec Ideal S100000 .f32 :=
  Host.divf (F := Ideal) ones (maximumf (cnt d) ones)

/-- The rows of `H` at the edges' sources, added into the edges' destinations. -/
def segSum (H : FVec Ideal S100000x64 .f32) (s d : IVec S1600000 32) :
    FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 d)
    (Host.gather gather_S100000x64_S1600000x1_S1600000x64_1_0_n_n_0_1_164 H
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- The segment sums scaled row by row by a vector `r` over the nodes. -/
def aggOf (H : FVec Ideal S100000x64 .f32) (s d : IVec S1600000 32)
    (r : FVec Ideal S100000 .f32) : FVec Ideal S100000x64 .f32 :=
  mulf (segSum H s d)
    (broadcastInDim S100000x64 ![0, 1] bcast_S100000x1_S100000x64_0_1 (broadcastInDim S100000x1 ![0] bcast_S100000_S100000x1_0 r))

/-- A vector over the nodes laid out as a column and repeated along the channels, read at `(p, q)`, is the vector at `p`. -/
theorem bcast_col (r : FVec Ideal S100000 .f32) (p : Fin 100000) (q : Fin 64) :
    broadcastInDim S100000x64 ![0, 1] bcast_S100000x1_S100000x64_0_1 (broadcastInDim S100000x1 ![0] bcast_S100000_S100000x1_0 r) (ix2 p q)
      = r (ix1 p) := by
  rw [broadcastInDim_apply _ bcast_S100000x1_S100000x64_0_1 _ (ix2 p q) (ix2 p (0 : Fin 1)) (fun a => match a with
    | ⟨0, _⟩ => by show p.val = if (100000 : Nat) = 1 then 0 else p.val; rw [if_neg (by decide)]
    | ⟨1, _⟩ => by show 0 = if (1 : Nat) = 1 then 0 else q.val; rw [if_pos rfl])]
  exact broadcastInDim_apply _ bcast_S100000_S100000x1_0 r (ix2 p (0 : Fin 1)) (ix1 p) (fun a => match a with
    | ⟨0, _⟩ => by show p.val = if (100000 : Nat) = 1 then 0 else p.val; rw [if_neg (by decide)])

/-- The segment sums are the reference's, term for term. -/
theorem segSum_eq (H : FVec Ideal S100000x64 .f32) (E : IVec S2x1600000 32) :
    segSum H (src E) (dst E) = Cert.ReferenceIdeal.Read.val_main_v13 (F := Ideal) H E := rfl

/-- The clamped counts are the reference's, term for term. -/
theorem cntmax_eq (E : IVec S2x1600000 32) :
    maximumf (cnt (dst E)) ones = Cert.ReferenceIdeal.Read.val_main_v19 (F := Ideal) E := rfl

/-- Every entry of the vector of ones is the pattern of one. -/
theorem ones_apply (j : S100000.Idx) : ones j = Ideal.ofBits .f32 0x3F800000#32 := rfl

/-- The reciprocal clamped count of a count vector `n`, entry by entry. -/
theorem rinv_of_apply (n : FVec Ideal S100000 .f32) (j : S100000.Idx) :
    Host.divf (F := Ideal) ones (maximumf n ones) j = Ideal.div (ones j) (max (n j) (ones j)) := rfl

/-- The kernel's program's aggregation (sums times the reciprocal clamped count) is the reference's (sums divided by the
    clamped count), entry by entry. -/
theorem agg_eq (H : FVec Ideal S100000x64 .f32) (E : IVec S2x1600000 32) :
    aggOf H (src E) (dst E) (rinv (dst E)) = Cert.ReferenceIdeal.Read.val_main_v22 (F := Ideal) H E := by
  funext i
  obtain ⟨p, q, rfl⟩ : ∃ (p : Fin 100000) (q : Fin 64), i = ix2 p q := ⟨i 0, i 1, eq_ix2 i⟩
  rw [Cert.ReferenceIdeal.Read.val_main_v22_apply, Cert.ReferenceIdeal.Read.val_main_v21_apply,
    Cert.ReferenceIdeal.Read.val_main_v20_apply, ← segSum_eq, ← cntmax_eq]
  have hi : Cert.ReferenceIdeal.Read.idx_main_v20 (Cert.ReferenceIdeal.Read.idx_main_v21 (ix2 p q)) = ix1 p :=
    funext fun a => Fin.ext (by match a with | ⟨0, _⟩ => rfl)
  rw [hi]
  unfold aggOf
  rw [mulf_apply, bcast_col]
  generalize segSum H (src E) (dst E) (ix2 p q) = x
  unfold rinv
  generalize cnt (dst E) = n
  rw [rinv_of_apply, maximumf_apply, Ideal.hostDivf_def, ones_apply, ofBits_one_f32]
  exact mul_div_one x _ (max_one_ne_zero _)

end Cert.Sage.Agg

end
-- ==== Proof.Fold.lean ====
/-
  The program's result buffer at the last boundary, read back through the fold to the launch memory.

  The contents at each boundary are known by name: a host stretch applies its operations to the contents before it, a kernel
  leaves its output array at the layer (or the read-out) of the arrays it finds and every other buffer as entered. Walking
  back from the result: the read-out of the second layer's output, with the transposed weight and the bias row made by the
  last stretch; the second layer of the aggregation of the first layer's output, of that output, and of the transposed
  weights and bias row made by the middle stretch, which reuses the edge vectors and the reciprocal counts the first
  stretch made; the first layer of the aggregated and plain node features. The layers over transposed weights and bias rows
  are the layers over the weights and biases as given.
-/
import proofs.«127411_j25804163515003_1_alg».proof.Proof.Gen.KernelIdeal.Frame
import proofs.«127411_j25804163515003_1_alg».proof.Proof.Region0
import proofs.«127411_j25804163515003_1_alg».proof.Proof.Region1
import proofs.«127411_j25804163515003_1_alg».proof.Proof.Region2
import proofs.«127411_j25804163515003_1_alg».proof.Proof.Agg
import Idealize.ShloMosaic.Lib.StableHlo.Run
import Idealize.ShloMosaic.Lib.Pipeline.Value

set_option maxRecDepth 16384

noncomputable section

namespace Cert.Sage.Fold

open Cert.KernelIdeal Cert.KernelIdeal.Gen Cert.Sage Cert.Sage.Agg
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-! ## The layers over transposed weights and bias rows -/

/-- A `[64, 64]` weight transposed, read at `(k, q)`, is the weight at `(q, k)`. -/
theorem transpose64_at (W : FVec Ideal S64x64 .f32) (k q : Fin 64) :
    transpose S64x64 [1, 0] W transposes_S64x64_S64x64_1_0 (ix2 k q) = W (ix2 q k) :=
  transpose_apply [1, 0] W transposes_S64x64_S64x64_1_0 (ix2 k q) (ix2 q k) (fun b => match b with
    | ⟨0, _⟩ => rfl
    | ⟨1, _⟩ => rfl)

/-- The `[16, 64]` weight transposed, read at `(k, q)`, is the weight at `(q, k)`. -/
theorem transpose16_at (W : FVec Ideal S16x64 .f32) (k : Fin 64) (q : Fin 16) :
    transpose S64x16 [1, 0] W transposes_S16x64_S64x16_1_0 (ix2 k q) = W (ix2 q k) :=
  transpose_apply [1, 0] W transposes_S16x64_S64x16_1_0 (ix2 k q) (ix2 q k) (fun b => match b with
    | ⟨0, _⟩ => rfl
    | ⟨1, _⟩ => rfl)

/-- A bias laid out as a row, read at `(0, q)`, is the bias at `q`. -/
theorem row64_at (b : FVec Ideal S64 .f32) (q : Fin 64) :
    shapeCast S1x64 b shapeCasts_S64_S1x64 (ix2 (0 : Fin 1) q) = b (ix1 q) :=
  (shapeCast_addUnit_apply ![64] b shapeCasts_S64_S1x64 (ix2 (0 : Fin 1) q)).trans
    (congrArg b (funext fun a => match a with | ⟨0, _⟩ => rfl))

theorem row16_at (b : FVec Ideal S16 .f32) (q : Fin 16) :
    shapeCast S1x16 b shapeCasts_S16_S1x16 (ix2 (0 : Fin 1) q) = b (ix1 q) :=
  (shapeCast_addUnit_apply ![16] b shapeCasts_S16_S1x16 (ix2 (0 : Fin 1) q)).trans
    (congrArg b (funext fun a => match a with | ⟨0, _⟩ => rfl))

/-- The layer over transposed weights and the bias row is the layer over the weights and the bias. -/
theorem sageT_eq (A X : FVec Ideal S100000x64 .f32) (Wl Wr : FVec Ideal S64x64 .f32) (b : FVec Ideal S64 .f32) :
    sageT A X (transpose S64x64 [1, 0] Wl transposes_S64x64_S64x64_1_0) (transpose S64x64 [1, 0] Wr transposes_S64x64_S64x64_1_0)
      (shapeCast S1x64 b shapeCasts_S64_S1x64) = sageArr A X Wl Wr b := by
  funext i
  obtain ⟨p, q, rfl⟩ : ∃ (p : Fin 100000) (q : Fin 64), i = ix2 p q := ⟨i 0, i 1, eq_ix2 i⟩
  rw [sageT_ix2, sageArr_ix2]
  unfold sageTAt sageAt
  rw [row64_at]
  refine congrArg (fun z => max z 0) ?_
  refine congrArg₂ (fun u v => u + v + b (ix1 q)) (Finset.sum_congr rfl fun k _ => ?_) (Finset.sum_congr rfl fun k _ => ?_)
  · rw [transpose64_at]
  · rw [transpose64_at]

/-- The read-out over the transposed weight and the bias row is the read-out over the weight and the bias. -/
theorem linT_eq (X : FVec Ideal S100000x64 .f32) (W : FVec Ideal S16x64 .f32) (b : FVec Ideal S16 .f32) :
    linT X (transpose S64x16 [1, 0] W transposes_S16x64_S64x16_1_0) (shapeCast S1x16 b shapeCasts_S16_S1x16) = linArr X W b := by
  funext i
  obtain ⟨p, q, rfl⟩ : ∃ (p : Fin 100000) (q : Fin 16), i = ix2 p q := ⟨i 0, i 1, eq_ix2 i⟩
  rw [linT_ix2, linArr_ix2]
  unfold linTAt linAt
  rw [row16_at]
  refine congrArg (fun z => z + b (ix1 q)) (Finset.sum_congr rfl fun k _ => ?_)
  rw [transpose16_at]

/-! ## The first stretch of host operations, from the launch memory -/

theorem w1_v1 : W1 m ρ c (Proc.devRef .tc main_v1) = src (m ((c : Thread nD τ).loc main_arg1)) := by
  show StableHlo.after hostOps0 (W0 m ρ c) _ = _
  dsimp only [hostOps0]
  after_results
  all_goals rfl
theorem w1_v3 : W1 m ρ c (Proc.devRef .tc main_v3) = dst (m ((c : Thread nD τ).loc main_arg1)) := by
  show StableHlo.after hostOps0 (W0 m ρ c) _ = _
  dsimp only [hostOps0]
  after_results
  all_goals rfl
theorem w1_v11 : W1 m ρ c (Proc.devRef .tc main_v11) = rinv (dst (m ((c : Thread nD τ).loc main_arg1))) := by
  show StableHlo.after hostOps0 (W0 m ρ c) _ = _
  dsimp only [hostOps0]
  after_results
  all_goals rfl
set_option maxHeartbeats 2000000 in
theorem w1_v24 : W1 m ρ c (Proc.devRef .tc main_v24) = aggOf (m ((c : Thread nD τ).loc main_arg0)) (src (m ((c : Thread nD τ).loc main_arg1))) (dst (m ((c : Thread nD τ).loc main_arg1))) (rinv (dst (m ((c : Thread nD τ).loc main_arg1)))) := by
  show StableHlo.after hostOps0 (W0 m ρ c) _ = _
  dsimp only [hostOps0]
  after_results_simp
  all_goals rfl
theorem w1_v25 : W1 m ρ c (Proc.devRef .tc main_v25) = transpose S64x64 [1, 0] (m ((c : Thread nD τ).loc main_arg2)) transposes_S64x64_S64x64_1_0 := by
  show StableHlo.after hostOps0 (W0 m ρ c) _ = _
  dsimp only [hostOps0]
  after_results
  all_goals rfl
theorem w1_v26 : W1 m ρ c (Proc.devRef .tc main_v26) = transpose S64x64 [1, 0] (m ((c : Thread nD τ).loc main_arg4)) transposes_S64x64_S64x64_1_0 := by
  show StableHlo.after hostOps0 (W0 m ρ c) _ = _
  dsimp only [hostOps0]
  after_results
  all_goals rfl
theorem w1_v27 : W1 m ρ c (Proc.devRef .tc main_v27) = shapeCast S1x64 (m ((c : Thread nD τ).loc main_arg3)) shapeCasts_S64_S1x64 := by
  show StableHlo.after hostOps0 (W0 m ρ c) _ = _
  dsimp only [hostOps0]
  after_results
  all_goals rfl
theorem w1_arg0 : W1 m ρ c (Proc.devRef .tc main_arg0) = (m ((c : Thread nD τ).loc main_arg0)) := by
  show StableHlo.after hostOps0 (W0 m ρ c) _ = _
  dsimp only [hostOps0]
  after_results
  all_goals rfl
theorem w1_arg5 : W1 m ρ c (Proc.devRef .tc main_arg5) = (m ((c : Thread nD τ).loc main_arg5)) := by
  show StableHlo.after hostOps0 (W0 m ρ c) _ = _
  dsimp only [hostOps0]
  after_results
  all_goals rfl
theorem w1_arg6 : W1 m ρ c (Proc.devRef .tc main_arg6) = (m ((c : Thread nD τ).loc main_arg6)) := by
  show StableHlo.after hostOps0 (W0 m ρ c) _ = _
  dsimp only [hostOps0]
  after_results
  all_goals rfl
theorem w1_arg7 : W1 m ρ c (Proc.devRef .tc main_arg7) = (m ((c : Thread nD τ).loc main_arg7)) := by
  show StableHlo.after hostOps0 (W0 m ρ c) _ = _
  dsimp only [hostOps0]
  after_results
  all_goals rfl
theorem w1_arg8 : W1 m ρ c (Proc.devRef .tc main_arg8) = (m ((c : Thread nD τ).loc main_arg8)) := by
  show StableHlo.after hostOps0 (W0 m ρ c) _ = _
  dsimp only [hostOps0]
  after_results
  all_goals rfl
theorem w1_arg9 : W1 m ρ c (Proc.devRef .tc main_arg9) = (m ((c : Thread nD τ).loc main_arg9)) := by
  show StableHlo.after hostOps0 (W0 m ρ c) _ = _
  dsimp only [hostOps0]
  after_results
  all_goals rfl

/-! ## The first layer's kernel -/

/-- The first layer's output: the layer of the reference's aggregation of the node features and of the node features. -/
theorem w2_v28 : W2 m ρ c (Proc.devRef .tc main_v28) = (sageArr (Cert.ReferenceIdeal.Read.val_main_v22 (F := Ideal) (m ((c : Thread nD τ).loc main_arg0)) (m ((c : Thread nD τ).loc main_arg1))) (m ((c : Thread nD τ).loc main_arg0)) (m ((c : Thread nD τ).loc main_arg2)) (m ((c : Thread nD τ).loc main_arg4)) (m ((c : Thread nD τ).loc main_arg3))) := by
  refine (W2_arr m ρ c 5).trans ((Region0.final (V1 m ρ) c).trans ?_)
  show sageT (W1 m ρ c (Proc.devRef .tc main_v24)) (W1 m ρ c (Proc.devRef .tc main_arg0)) (W1 m ρ c (Proc.devRef .tc main_v25))
    (W1 m ρ c (Proc.devRef .tc main_v26)) (W1 m ρ c (Proc.devRef .tc main_v27)) = _
  rw [w1_v24, w1_arg0, w1_v25, w1_v26, w1_v27, agg_eq]
  exact sageT_eq _ _ _ _ _

theorem w2_v1 : W2 m ρ c (Proc.devRef .tc main_v1) = src (m ((c : Thread nD τ).loc main_arg1)) := (W2_of_ne m ρ c main_v1 (by decide)).trans (w1_v1 m ρ c)
theorem w2_v3 : W2 m ρ c (Proc.devRef .tc main_v3) = dst (m ((c : Thread nD τ).loc main_arg1)) := (W2_of_ne m ρ c main_v3 (by decide)).trans (w1_v3 m ρ c)
theorem w2_v11 : W2 m ρ c (Proc.devRef .tc main_v11) = rinv (dst (m ((c : Thread nD τ).loc main_arg1))) := (W2_of_ne m ρ c main_v11 (by decide)).trans (w1_v11 m ρ c)
theorem w2_arg5 : W2 m ρ c (Proc.devRef .tc main_arg5) = (m ((c : Thread nD τ).loc main_arg5)) := (W2_of_ne m ρ c main_arg5 (by decide)).trans (w1_arg5 m ρ c)
theorem w2_arg6 : W2 m ρ c (Proc.devRef .tc main_arg6) = (m ((c : Thread nD τ).loc main_arg6)) := (W2_of_ne m ρ c main_arg6 (by decide)).trans (w1_arg6 m ρ c)
theorem w2_arg7 : W2 m ρ c (Proc.devRef .tc main_arg7) = (m ((c : Thread nD τ).loc main_arg7)) := (W2_of_ne m ρ c main_arg7 (by decide)).trans (w1_arg7 m ρ c)
theorem w2_arg8 : W2 m ρ c (Proc.devRef .tc main_arg8) = (m ((c : Thread nD τ).loc main_arg8)) := (W2_of_ne m ρ c main_arg8 (by decide)).trans (w1_arg8 m ρ c)
theorem w2_arg9 : W2 m ρ c (Proc.devRef .tc main_arg9) = (m ((c : Thread nD τ).loc main_arg9)) := (W2_of_ne m ρ c main_arg9 (by decide)).trans (w1_arg9 m ρ c)

/-! ## The middle stretch -/

set_option maxHeartbeats 2000000 in
theorem w3_v41 : W3 m ρ c (Proc.devRef .tc main_v41) = aggOf (W2 m ρ c (Proc.devRef .tc main_v28)) (W2 m ρ c (Proc.devRef .tc main_v1))
    (W2 m ρ c (Proc.devRef .tc main_v3)) (W2 m ρ c (Proc.devRef .tc main_v11)) := by
  show StableHlo.after hostOps1 (W2 m ρ c) _ = _
  dsimp only [hostOps1]
  after_results_simp
  all_goals rfl
theorem w3_v28 : W3 m ρ c (Proc.devRef .tc main_v28) = W2 m ρ c (Proc.devRef .tc main_v28) := by
  show StableHlo.after hostOps1 (W2 m ρ c) _ = _
  dsimp only [hostOps1]
  after_results
  all_goals rfl
theorem w3_v42 : W3 m ρ c (Proc.devRef .tc main_v42) = transpose S64x64 [1, 0] (W2 m ρ c (Proc.devRef .tc main_arg5)) transposes_S64x64_S64x64_1_0 := by
  show StableHlo.after hostOps1 (W2 m ρ c) _ = _
  dsimp only [hostOps1]
  after_results
  all_goals rfl
theorem w3_v43 : W3 m ρ c (Proc.devRef .tc main_v43) = transpose S64x64 [1, 0] (W2 m ρ c (Proc.devRef .tc main_arg7)) transposes_S64x64_S64x64_1_0 := by
  show StableHlo.after hostOps1 (W2 m ρ c) _ = _
  dsimp only [hostOps1]
  after_results
  all_goals rfl
theorem w3_v44 : W3 m ρ c (Proc.devRef .tc main_v44) = shapeCast S1x64 (W2 m ρ c (Proc.devRef .tc main_arg6)) shapeCasts_S64_S1x64 := by
  show StableHlo.after hostOps1 (W2 m ρ c) _ = _
  dsimp only [hostOps1]
  after_results
  all_goals rfl
theorem w3_arg8 : W3 m ρ c (Proc.devRef .tc main_arg8) = W2 m ρ c (Proc.devRef .tc main_arg8) := by
  show StableHlo.after hostOps1 (W2 m ρ c) _ = _
  dsimp only [hostOps1]
  after_results
  all_goals rfl
theorem w3_arg9 : W3 m ρ c (Proc.devRef .tc main_arg9) = W2 m ρ c (Proc.devRef .tc main_arg9) := by
  show StableHlo.after hostOps1 (W2 m ρ c) _ = _
  dsimp only [hostOps1]
  after_results
  all_goals rfl

/-! ## The second layer's kernel -/

/-- The second layer's output: the layer of the reference's aggregation of the first layer's output and of that output. -/
theorem w4_v45 : W4 m ρ c (Proc.devRef .tc main_v45)
    = sageArr (Cert.ReferenceIdeal.Read.val_main_v22 (F := Ideal) (sageArr (Cert.ReferenceIdeal.Read.val_main_v22 (F := Ideal) (m ((c : Thread nD τ).loc main_arg0)) (m ((c : Thread nD τ).loc main_arg1))) (m ((c : Thread nD τ).loc main_arg0)) (m ((c : Thread nD τ).loc main_arg2)) (m ((c : Thread nD τ).loc main_arg4)) (m ((c : Thread nD τ).loc main_arg3))) (m ((c : Thread nD τ).loc main_arg1))) (sageArr (Cert.ReferenceIdeal.Read.val_main_v22 (F := Ideal) (m ((c : Thread nD τ).loc main_arg0)) (m ((c : Thread nD τ).loc main_arg1))) (m ((c : Thread nD τ).loc main_arg0)) (m ((c : Thread nD τ).loc main_arg2)) (m ((c : Thread nD τ).loc main_arg4)) (m ((c : Thread nD τ).loc main_arg3))) (m ((c : Thread nD τ).loc main_arg5)) (m ((c : Thread nD τ).loc main_arg7)) (m ((c : Thread nD τ).loc main_arg6)) := by
  refine (W4_arr m ρ c 5).trans ((Region1.final (V3 m ρ) c).trans ?_)
  show sageT (W3 m ρ c (Proc.devRef .tc main_v41)) (W3 m ρ c (Proc.devRef .tc main_v28)) (W3 m ρ c (Proc.devRef .tc main_v42))
    (W3 m ρ c (Proc.devRef .tc main_v43)) (W3 m ρ c (Proc.devRef .tc main_v44)) = _
  rw [w3_v41, w3_v28, w3_v42, w3_v43, w3_v44, w2_v28, w2_v1, w2_v3, w2_v11, w2_arg5, w2_arg6, w2_arg7, agg_eq]
  exact sageT_eq _ _ _ _ _

theorem w4_arg8 : W4 m ρ c (Proc.devRef .tc main_arg8) = (m ((c : Thread nD τ).loc main_arg8)) :=
  (W4_of_ne m ρ c main_arg8 (by decide)).trans ((w3_arg8 m ρ c).trans (w2_arg8 m ρ c))
theorem w4_arg9 : W4 m ρ c (Proc.devRef .tc main_arg9) = (m ((c : Thread nD τ).loc main_arg9)) :=
  (W4_of_ne m ρ c main_arg9 (by decide)).trans ((w3_arg9 m ρ c).trans (w2_arg9 m ρ c))

/-! ## The last stretch and the read-out kernel -/

theorem w5_v45 : W5 m ρ c (Proc.devRef .tc main_v45) = W4 m ρ c (Proc.devRef .tc main_v45) := by
  show StableHlo.after hostOps2 (W4 m ρ c) _ = _
  dsimp only [hostOps2]
  after_results
  all_goals rfl
theorem w5_v46 : W5 m ρ c (Proc.devRef .tc main_v46) = transpose S64x16 [1, 0] (W4 m ρ c (Proc.devRef .tc main_arg8)) transposes_S16x64_S64x16_1_0 := by
  show StableHlo.after hostOps2 (W4 m ρ c) _ = _
  dsimp only [hostOps2]
  after_results
  all_goals rfl
theorem w5_v47 : W5 m ρ c (Proc.devRef .tc main_v47) = shapeCast S1x16 (W4 m ρ c (Proc.devRef .tc main_arg9)) shapeCasts_S16_S1x16 := by
  show StableHlo.after hostOps2 (W4 m ρ c) _ = _
  dsimp only [hostOps2]
  after_results
  all_goals rfl

/-- THE RESULT at the last boundary: the read-out of the second layer of the first layer, every aggregation the reference's. -/
theorem result_eq : W6 m ρ c (Proc.devRef .tc main_v48)
    = linArr (sageArr (Cert.ReferenceIdeal.Read.val_main_v22 (F := Ideal) (sageArr (Cert.ReferenceIdeal.Read.val_main_v22 (F := Ideal) (m ((c : Thread nD τ).loc main_arg0)) (m ((c : Thread nD τ).loc main_arg1))) (m ((c : Thread nD τ).loc main_arg0)) (m ((c : Thread nD τ).loc main_arg2)) (m ((c : Thread nD τ).loc main_arg4)) (m ((c : Thread nD τ).loc main_arg3))) (m ((c : Thread nD τ).loc main_arg1))) (sageArr (Cert.ReferenceIdeal.Read.val_main_v22 (F := Ideal) (m ((c : Thread nD τ).loc main_arg0)) (m ((c : Thread nD τ).loc main_arg1))) (m ((c : Thread nD τ).loc main_arg0)) (m ((c : Thread nD τ).loc main_arg2)) (m ((c : Thread nD τ).loc main_arg4)) (m ((c : Thread nD τ).loc main_arg3))) (m ((c : Thread nD τ).loc main_arg5)) (m ((c : Thread nD τ).loc main_arg7)) (m ((c : Thread nD τ).loc main_arg6))) (m ((c : Thread nD τ).loc main_arg8)) (m ((c : Thread nD τ).loc main_arg9)) := by
  refine (W6_arr m ρ c 3).trans ((Region2.final (V5 m ρ) c).trans ?_)
  show linT (W5 m ρ c (Proc.devRef .tc main_v45)) (W5 m ρ c (Proc.devRef .tc main_v46)) (W5 m ρ c (Proc.devRef .tc main_v47)) = _
  rw [w5_v45, w5_v46, w5_v47, w4_v45, w4_arg8, w4_arg9]
  exact linT_eq _ _ _

end Cert.Sage.Fold

end
-- ==== Proof.RefIsSpec.lean ====
/-
  The reference program is the specification: each of its two layers is the specification's layer applied to the
  aggregated features and the node features, its second aggregation is the first one's function applied to the first
  layer's result, and its read-out is the specification's read-out.

  Every host operation between an aggregation and the next is read at an index: a product with a transposed weight
  matrix is the sum over `k` of the left operand at `(p, k)` times the weight at `(q, k)`, a bias row broadcast over the
  nodes is the bias at `q`, and the rectifier's zero array is the constant zero. The reference adds the bias before the
  second product and the specification after it; addition on the extended reals is commutative and associative, so the
  two sums agree. The aggregation itself (a gather along the edges, a scatter-add into the nodes, a division by the
  clamped count) enters only as an array: nothing about it is used.
-/
import proofs.«127411_j25804163515003_1_alg».proof.Proof.Gen.ReferenceIdeal.Read
import proofs.«127411_j25804163515003_1_alg».proof.Proof.Spec
import Idealize.ShloMosaic.PureOps.Ideal.Laws
import Idealize.ShloMosaic.Lib.ValueIdx

noncomputable section

namespace Cert.Sage.Ref

open Cert.ReferenceIdeal Cert.ReferenceIdeal.Read Cert.Sage Idealize.ShloMosaic Idealize.ShloMosaic.ValueIdx

/-- The first layer: the rectified sum of the aggregated features times `W1l` transposed, the bias, and the node features
    times `W1r` transposed is the specification's layer on the aggregation of `x` and on `x`. -/
theorem layer1 (x0 : (⟨S100000x64, .f32⟩ : BufTy).Contents (Elt Ideal)) (x1 : (⟨S2x1600000, .i32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) :
    val_main_v31 (F := Ideal) x0 x1 x2 x3 x4 = sageArr (val_main_v22 (F := Ideal) x0 x1) x0 x2 x4 x3 := by
  funext i
  obtain ⟨p, q, rfl⟩ : ∃ (p : Fin 100000) (q : Fin 64), i = ix2 p q := ⟨i 0, i 1, eq_ix2 i⟩
  rw [sageArr_ix2]
  unfold sageAt
  rw [val_main_v31_apply, val_main_v30_apply, val_main_v27_apply, val_main_v29_apply, val_main_v24_apply,
    val_main_v26_apply, val_main_v25_apply, val_main_call0_v0_apply, val_main_call0_cst_apply]
  generalize val_main_v22 (F := Ideal) x0 x1 = A
  have eA : ∀ k : Fin 64, lidx_main_v24 (ix2 p q) k = ix2 p k := fun k =>
    funext fun a => Fin.ext (by match a with | ⟨0, _⟩ => rfl | ⟨1, _⟩ => rfl)
  have eW : ∀ k : Fin 64, idx_main_v23 (ridx_main_v24 (ix2 p q) k) = ix2 q k := fun k =>
    funext fun a => Fin.ext (by match a with | ⟨0, _⟩ => rfl | ⟨1, _⟩ => rfl)
  have eX : ∀ k : Fin 64, lidx_main_v29 (ix2 p q) k = ix2 p k := fun k =>
    funext fun a => Fin.ext (by match a with | ⟨0, _⟩ => rfl | ⟨1, _⟩ => rfl)
  have eV : ∀ k : Fin 64, idx_main_v28 (ridx_main_v29 (ix2 p q) k) = ix2 q k := fun k =>
    funext fun a => Fin.ext (by match a with | ⟨0, _⟩ => rfl | ⟨1, _⟩ => rfl)
  have eb : idx_main_v25 (idx_main_v26 (ix2 p q)) = ix1 q :=
    funext fun a => Fin.ext (by match a with | ⟨0, _⟩ => rfl)
  simp only [val_main_v23_apply, val_main_v28_apply, eA, eW, eX, eV, eb, Ideal.maximumf_def, Ideal.addf_def,
    Ideal.ofBits_def, Ideal.ofBits_zero_f32]
  rw [add_right_comm]

/-- The second layer's aggregation is the first layer's aggregation function applied to the first layer's result: the
    same gather, scatter-add and division by the clamped count, on buffers with other names. -/
theorem agg2 (x0 : (⟨S100000x64, .f32⟩ : BufTy).Contents (Elt Ideal)) (x1 : (⟨S2x1600000, .i32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) :
    val_main_v50 (F := Ideal) x0 x1 x2 x3 x4 = val_main_v22 (F := Ideal) (val_main_v31 (F := Ideal) x0 x1 x2 x3 x4) x1 := rfl

/-- The second layer: the same rectified sum, on the second aggregation and the first layer's result, with `W2l`, `b2`
    and `W2r`. -/
theorem layer2 (x0 : (⟨S100000x64, .f32⟩ : BufTy).Contents (Elt Ideal)) (x1 : (⟨S2x1600000, .i32⟩ : BufTy).Contents (Elt Ideal))
    (x2 : (⟨S64x64, .f32⟩ : BufTy).Contents (Elt Ideal)) (x3 : (⟨S64, .f32⟩ : BufTy).Contents (Elt Ideal))
    (x4 x5 : (⟨S64x64, .f32⟩ : BufTy).Contents (Elt Ideal)) (x6 : (⟨S64, .f32⟩ : BufTy).Contents (Elt Ideal))
    (x7 : (⟨S64x64, .f32⟩ : BufTy).Contents (Elt Ideal)) :
    val_main_v59 (F := Ideal) x0 x1 x2 x3 x4 x5 x6 x7
      = sageArr (val_main_v50 (F := Ideal) x0 x1 x2 x3 x4) (val_main_v31 (F := Ideal) x0 x1 x2 x3 x4) x5 x7 x6 := by
  funext i
  obtain ⟨p, q, rfl⟩ : ∃ (p : Fin 100000) (q : Fin 64), i = ix2 p q := ⟨i 0, i 1, eq_ix2 i⟩
  rw [sageArr_ix2]
  unfold sageAt
  rw [val_main_v59_apply, val_main_v58_apply, val_main_v55_apply, val_main_v57_apply, val_main_v52_apply,
    val_main_v54_apply, val_main_v53_apply, val_main_call1_v0_apply, val_main_call1_cst_apply]
  generalize val_main_v50 (F := Ideal) x0 x1 x2 x3 x4 = A
  generalize val_main_v31 (F := Ideal) x0 x1 x2 x3 x4 = H
  have eA : ∀ k : Fin 64, lidx_main_v52 (ix2 p q) k = ix2 p k := fun k =>
    funext fun a => Fin.ext (by match a with | ⟨0, _⟩ => rfl | ⟨1, _⟩ => rfl)
  have eW : ∀ k : Fin 64, idx_main_v51 (ridx_main_v52 (ix2 p q) k) = ix2 q k := fun k =>
    funext fun a => Fin.ext (by match a with | ⟨0, _⟩ => rfl | ⟨1, _⟩ => rfl)
  have eX : ∀ k : Fin 64, lidx_main_v57 (ix2 p q) k = ix2 p k := fun k =>
    funext fun a => Fin.ext (by match a with | ⟨0, _⟩ => rfl | ⟨1, _⟩ => rfl)
  have eV : ∀ k : Fin 64, idx_main_v56 (ridx_main_v57 (ix2 p q) k) = ix2 q k := fun k =>
    funext fun a => Fin.ext (by match a with | ⟨0, _⟩ => rfl | ⟨1, _⟩ => rfl)
  have eb : idx_main_v53 (idx_main_v54 (ix2 p q)) = ix1 q :=
    funext fun a => Fin.ext (by match a with | ⟨0, _⟩ => rfl)
  simp only [val_main_v51_apply, val_main_v56_apply, eA, eW, eX, eV, eb, Ideal.maximumf_def, Ideal.addf_def,
    Ideal.ofBits_def, Ideal.ofBits_zero_f32]
  rw [add_right_comm]

/-- The read-out: the second layer's result times `Wlin` transposed plus the bias is the specification's read-out. -/
theorem readout (x0 : (⟨S100000x64, .f32⟩ : BufTy).Contents (Elt Ideal)) (x1 : (⟨S2x1600000, .i32⟩ : BufTy).Contents (Elt Ideal))
    (x2 : (⟨S64x64, .f32⟩ : BufTy).Contents (Elt Ideal)) (x3 : (⟨S64, .f32⟩ : BufTy).Contents (Elt Ideal))
    (x4 x5 : (⟨S64x64, .f32⟩ : BufTy).Contents (Elt Ideal)) (x6 : (⟨S64, .f32⟩ : BufTy).Contents (Elt Ideal))
    (x7 : (⟨S64x64, .f32⟩ : BufTy).Contents (Elt Ideal)) (x8 : (⟨S16x64, .f32⟩ : BufTy).Contents (Elt Ideal))
    (x9 : (⟨S16, .f32⟩ : BufTy).Contents (Elt Ideal)) :
    val_main_v64 (F := Ideal) x0 x1 x2 x3 x4 x5 x6 x7 x8 x9
      = linArr (val_main_v59 (F := Ideal) x0 x1 x2 x3 x4 x5 x6 x7) x8 x9 := by
  funext i
  obtain ⟨p, q, rfl⟩ : ∃ (p : Fin 100000) (q : Fin 16), i = ix2 p q := ⟨i 0, i 1, eq_ix2 i⟩
  rw [linArr_ix2]
  unfold linAt
  rw [val_main_v64_apply, val_main_v61_apply, val_main_v63_apply, val_main_v62_apply]
  generalize val_main_v59 (F := Ideal) x0 x1 x2 x3 x4 x5 x6 x7 = H
  have eH : ∀ k : Fin 64, lidx_main_v61 (ix2 p q) k = ix2 p k := fun k =>
    funext fun a => Fin.ext (by match a with | ⟨0, _⟩ => rfl | ⟨1, _⟩ => rfl)
  have eW : ∀ k : Fin 64, idx_main_v60 (ridx_main_v61 (ix2 p q) k) = ix2 q k := fun k =>
    funext fun a => Fin.ext (by match a with | ⟨0, _⟩ => rfl | ⟨1, _⟩ => rfl)
  have eb : idx_main_v62 (idx_main_v63 (ix2 p q)) = ix1 q :=
    funext fun a => Fin.ext (by match a with | ⟨0, _⟩ => rfl)
  simp only [val_main_v60_apply, eH, eW, eb, Ideal.addf_def]

end Cert.Sage.Ref

end
-- ==== Proof.lean ====
/-
  Two-layer GraphSAGE with mean aggregation, a Pallas program against its jnp reference, equal on the extended reals.

  The reference computes `h₁ = relu (agg x · W1lᵀ + b1 + x · W1rᵀ)`, `h₂ = relu (agg h₁ · W2lᵀ + b2 + h₁ · W2rᵀ)` and
  `h₂ · Wlinᵀ + blin`, where `agg h` gathers the rows of `h` at the edges' sources, adds them into the edges' destinations and
  divides each row by the destination's edge count clamped below by one. The Pallas program makes the same gather and the
  same sums on the host, multiplies by the reciprocal of the clamped count instead, and computes each layer and the read-out
  in a kernel tiled over ten blocks of 10000 nodes, the weights transposed and the biases laid out as rows beforehand.

  What joins the two: a product with `1 / y` is the quotient by `y` for every `y ≠ 0` on the extended reals, and a clamped
  count is not zero; adding the bias before or after the second product is the same sum (addition there is commutative and
  associative); a matrix product accumulated into zero by a kernel and the host's product are one sum; each kernel's row
  blocks are restrictions of one whole-array function and tile its output. No step needs the inputs finite, so the
  precondition is never opened, and the gather and the scatter are never opened either: they are the same terms on both sides.
-/
import proofs.«127411_j25804163515003_1_alg».proof.Defs
import proofs.«127411_j25804163515003_1_alg».proof.Proof.Gen.Kernel
import proofs.«127411_j25804163515003_1_alg».proof.Proof.Gen.Kernel.Skeleton
import proofs.«127411_j25804163515003_1_alg».proof.Proof.Gen.Kernel.Launch
import proofs.«127411_j25804163515003_1_alg».proof.Proof.Gen.Kernel.Points
import proofs.«127411_j25804163515003_1_alg».proof.Proof.Gen.Kernel.Frame
import proofs.«127411_j25804163515003_1_alg».proof.Proof.Gen.KernelIdeal
import proofs.«127411_j25804163515003_1_alg».proof.Proof.Gen.KernelIdeal.Skeleton
import proofs.«127411_j25804163515003_1_alg».proof.Proof.Gen.KernelIdeal.Launch
import proofs.«127411_j25804163515003_1_alg».proof.Proof.Gen.KernelIdeal.Points
import proofs.«127411_j25804163515003_1_alg».proof.Proof.Gen.KernelIdeal.Frame
import proofs.«127411_j25804163515003_1_alg».proof.Proof.Gen.ReferenceIdeal
import proofs.«127411_j25804163515003_1_alg».proof.Proof.Gen.Pre_finite_inputs
import proofs.«127411_j25804163515003_1_alg».proof.Proof.Gen.ReferenceIdeal.Run
import proofs.«127411_j25804163515003_1_alg».proof.Proof.Gen.ReferenceIdeal.Read
import proofs.«127411_j25804163515003_1_alg».proof.Proof.KRun
import proofs.«127411_j25804163515003_1_alg».proof.Proof.Fold
import proofs.«127411_j25804163515003_1_alg».proof.Proof.RefIsSpec
import Idealize.ShloMosaic.Adequacy
import Idealize.ShloMosaic.Init

noncomputable section

namespace Cert.Proof

open Idealize.ShloMosaic Idealize.SL.Sem

/-- The Pallas program runs and gives its arguments back, read at words. -/
theorem frame_k : Cert.frame_Kernel := fun m ρ _ => Cert.Kernel.Gen.frame m ρ

/-- The same read at the extended reals. -/
theorem frame_ki : Cert.frame_KernelIdeal := fun m ρ _ => Cert.KernelIdeal.Gen.frame m ρ

/-- The reference runs and gives its arguments back: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the read-out of the second layer of the first layer, every aggregation the reference's: the
    Pallas program's result read back through its six segments, the reference's run read one operation at a time. -/
theorem algebraic : Cert.algebraic_KernelIdeal_ReferenceIdeal := by
  intro m ρ m' ρ' _ hagree
  refine ⟨fun c => Cert.KernelIdeal.Gen.W6 m ρ c (Proc.devRef .tc Cert.KernelIdeal.main_v48),
    Cert.Sage.KRun.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v64_eq, Cert.Sage.Ref.readout, Cert.Sage.Ref.layer2, Cert.Sage.Ref.agg2,
    Cert.Sage.Ref.layer1, h0, h1, h2, h3, h4, h5, h6, h7, h8, h9]
  exact (Cert.Sage.Fold.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
